-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v91)) (v1 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_v68) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000x64 : Shape := ⟨2, ![20000, 64]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64x128 .f32) (main_arg14 : FVec F S64 .f32) (main_arg15 : FVec F S64x128 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64x128 .f32 := Host.absf main_arg13
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x128 .f32 := Host.absf main_arg15
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_v63 main_v67

def fn_part2 {F : FTy → Type} [FloatOps F] (main_arg9 : FVec F S128x128 .f32) (main_arg10 : FVec F S64x128 .f32) (main_arg11 : FVec F S64 .f32) (main_arg12 : FVec F S64x128 .f32) (main_arg13 : FVec F S64x128 .f32) (main_arg14 : FVec F S64 .f32) (main_arg15 : FVec F S64x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg12
  let main_cst_18 : FVec F S_ .f32 := constant S_ .f32 0x7F800000#32
  let main_v50 : FVec F S64x128 .f32 := broadcastInDim S64x128 ![] bcast_S_S64x128 main_cst_18
  fn_part3 (F := F) main_arg13 main_arg14 main_arg15 main_v48 main_v49 main_v50

def fn_part1 {F : FTy → Type} [FloatOps F] (main_arg6 : FVec F S128x64 .f32) (main_arg7 : FVec F S128x64 .f32) (main_arg8 : FVec F S128 .f32) (main_arg9 : FVec F S128x128 .f32) (main_arg10 : FVec F S64x128 .f32) (main_arg11 : FVec F S64 .f32) (main_arg12 : FVec F S64x128 .f32) (main_arg13 : FVec F S64x128 .f32) (main_arg14 : FVec F S64 .f32) (main_arg15 : FVec F S64x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : FVec F S20000x64 .f32) (main_arg2 : IVec S2x1000000 32) (main_arg3 : IVec S2x1000000 32) (main_arg4 : FVec F S128x128 .f32) (main_arg5 : FVec F S128 .f32) (main_arg6 : FVec F S128x64 .f32) (main_arg7 : FVec F S128x64 .f32) (main_arg8 : FVec F S128 .f32) (main_arg9 : FVec F S128x128 .f32) (main_arg10 : FVec F S64x128 .f32) (main_arg11 : FVec F S64 .f32) (main_arg12 : FVec F S64x128 .f32) (main_arg13 : FVec F S64x128 .f32) (main_arg14 : FVec F S64 .f32) (main_arg15 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x64 .f32 := Host.absf main_arg1
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S20000x64 : Shape := ⟨2, ![20000, 64]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S20000x128 : Shape := ⟨2, ![20000, 128]⟩
abbrev S20000 : Shape := ⟨1, ![20000]⟩
abbrev S1x128 : Shape := ⟨2, ![1, 128]⟩
abbrev S20000x1 : Shape := ⟨2, ![20000, 1]⟩
abbrev S2000x128 : Shape := ⟨2, ![2000, 128]⟩
abbrev S2000x1 : Shape := ⟨2, ![2000, 1]⟩
abbrev S2000x64 : Shape := ⟨2, ![2000, 64]⟩
abbrev S1000000x64 : Shape := ⟨2, ![1000000, 64]⟩
abbrev S100000x64 : Shape := ⟨2, ![100000, 64]⟩
abbrev S100000 : Shape := ⟨1, ![100000]⟩
abbrev S100000x1 : Shape := ⟨2, ![100000, 1]⟩
abbrev S5000x64 : Shape := ⟨2, ![5000, 64]⟩
abbrev S5000x1 : Shape := ⟨2, ![5000, 1]⟩
abbrev S5000x128 : Shape := ⟨2, ![5000, 128]⟩
abbrev S1x64 : Shape := ⟨2, ![1, 64]⟩

abbrev nBuf : Space → Nat
  | .hbm => 128
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S20000x64, .f32⟩
  | .hbm, ⟨2, _⟩ => ⟨S2x1000000, .i32⟩
  | .hbm, ⟨3, _⟩ => ⟨S2x1000000, .i32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S128, .f32⟩
  | .hbm, ⟨9, _⟩ => ⟨S128x128, .f32⟩
  | .hbm, ⟨10, _⟩ => ⟨S64x128, .f32⟩
  | .hbm, ⟨11, _⟩ => ⟨S64, .f32⟩
  | .hbm, ⟨12, _⟩ => ⟨S64x128, .f32⟩
  | .hbm, ⟨13, _⟩ => ⟨S64x128, .f32⟩
  | .hbm, ⟨14, _⟩ => ⟨S64, .f32⟩
  | .hbm, ⟨15, _⟩ => ⟨S64x128, .f32⟩
  | .hbm, ⟨16, _⟩ => ⟨S1x1000000, .i32⟩
  | .hbm, ⟨17, _⟩ => ⟨S1000000, .i32⟩
  | .hbm, ⟨18, _⟩ => ⟨S1x1000000, .i32⟩
  | .hbm, ⟨19, _⟩ => ⟨S1000000, .i32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x128, .f32⟩
  | .hbm, ⟨29, _⟩ => ⟨S_, .f32⟩
  | .hbm, ⟨30, _⟩ => ⟨S20000x128, .f32⟩
  | .hbm, ⟨31, _⟩ => ⟨S1000000x1, .i32⟩
  | .hbm, ⟨32, _⟩ => ⟨S20000x128, .f32⟩
  | .hbm, ⟨33, _⟩ => ⟨S_, .f32⟩
  | .hbm, ⟨34, _⟩ => ⟨S1000000, .f32⟩
  | .hbm, ⟨35, _⟩ => ⟨S_, .f32⟩
  | .hbm, ⟨36, _⟩ => ⟨S20000, .f32⟩
  | .hbm, ⟨37, _⟩ => ⟨S1000000x1, .i32⟩
  | .hbm, ⟨38, _⟩ => ⟨S20000, .f32⟩
  | .hbm, ⟨39, _⟩ => ⟨S128x128, .f32⟩
  | .hbm, ⟨40, _⟩ => ⟨S64x128, .f32⟩
  | .hbm, ⟨41, _⟩ => ⟨S1x128, .f32⟩
  | .hbm, ⟨42, _⟩ => ⟨S20000x1, .f32⟩
  | .hbm, ⟨43, _⟩ => ⟨S20000x128, .f32⟩
  | .hbm, ⟨44, _⟩ => ⟨S1x1000000, .i32⟩
  | .hbm, ⟨45, _⟩ => ⟨S1000000, .i32⟩
  | .hbm, ⟨46, _⟩ => ⟨S1x1000000, .i32⟩
  | .hbm, ⟨47, _⟩ => ⟨S1000000, .i32⟩
  | .hbm, ⟨48, _⟩ => ⟨S_, .i32⟩
  | .hbm, ⟨49, _⟩ => ⟨S1000000, .i32⟩
  | .hbm, ⟨50, _⟩ => ⟨S1000000, .i1⟩
  | .hbm, ⟨51, _⟩ => ⟨S_, .i32⟩
  | .hbm, ⟨52, _⟩ => ⟨S1000000, .i32⟩
  | .hbm, ⟨53, _⟩ => ⟨S1000000, .i32⟩
  | .hbm, ⟨54, _⟩ => ⟨S1000000, .i32⟩
  | .hbm, ⟨55, _⟩ => ⟨S1000000x1, .i32⟩
  | .hbm, ⟨56, _⟩ => ⟨S1000000x64, .f32⟩
  | .hbm, ⟨57, _⟩ => ⟨S_, .f32⟩
  | .hbm, ⟨58, _⟩ => ⟨S100000x64, .f32⟩
  | .hbm, ⟨59, _⟩ => ⟨S1000000x1, .i32⟩
  | .hbm, ⟨60, _⟩ => ⟨S100000x64, .f32⟩
  | .hbm, ⟨61, _⟩ => ⟨S_, .f32⟩
  | .hbm, ⟨62, _⟩ => ⟨S1000000, .f32⟩
  | .hbm, ⟨63, _⟩ => ⟨S_, .f32⟩
  | .hbm, ⟨64, _⟩ => ⟨S100000, .f32⟩
  | .hbm, ⟨65, _⟩ => ⟨S1000000x1, .i32⟩
  | .hbm, ⟨66, _⟩ => ⟨S100000, .f32⟩
  | .hbm, ⟨67, _⟩ => ⟨S64x128, .f32⟩
  | .hbm, ⟨68, _⟩ => ⟨S128x128, .f32⟩
  | .hbm, ⟨69, _⟩ => ⟨S1x128, .f32⟩
  | .hbm, ⟨70, _⟩ => ⟨S100000x1, .f32⟩
  | .hbm, ⟨71, _⟩ => ⟨S100000x128, .f32⟩
  | .hbm, ⟨72, _⟩ => ⟨S1x1000000, .i32⟩
  | .hbm, ⟨73, _⟩ => ⟨S1000000, .i32⟩
  | .hbm, ⟨74, _⟩ => ⟨S1x1000000, .i32⟩
  | .hbm, ⟨75, _⟩ => ⟨S1000000, .i32⟩
  | .hbm, ⟨76, _⟩ => ⟨S_, .i32⟩
  | .hbm, ⟨77, _⟩ => ⟨S1000000, .i32⟩
  | .hbm, ⟨78, _⟩ => ⟨S1000000, .i1⟩
  | .hbm, ⟨79, _⟩ => ⟨S_, .i32⟩
  | .hbm, ⟨80, _⟩ => ⟨S1000000, .i32⟩
  | .hbm, ⟨81, _⟩ => ⟨S1000000, .i32⟩
  | .hbm, ⟨82, _⟩ => ⟨S1000000, .i32⟩
  | .hbm, ⟨83, _⟩ => ⟨S1000000x1, .i32⟩
  | .hbm, ⟨84, _⟩ => ⟨S1000000x128, .f32⟩
  | .hbm, ⟨85, _⟩ => ⟨S_, .f32⟩
  | .hbm, ⟨86, _⟩ => ⟨S20000x128, .f32⟩
  | .hbm, ⟨87, _⟩ => ⟨S1000000x1, .i32⟩
  | .hbm, ⟨88, _⟩ => ⟨S20000x128, .f32⟩
  | .hbm, ⟨89, _⟩ => ⟨S_, .f32⟩
  | .hbm, ⟨90, _⟩ => ⟨S1000000, .f32⟩
  | .hbm, ⟨91, _⟩ => ⟨S_, .f32⟩
  | .hbm, ⟨92, _⟩ => ⟨S20000, .f32⟩
  | .hbm, ⟨93, _⟩ => ⟨S1000000x1, .i32⟩
  | .hbm, ⟨94, _⟩ => ⟨S20000, .f32⟩
  | .hbm, ⟨95, _⟩ => ⟨S128x64, .f32⟩
  | .hbm, ⟨96, _⟩ => ⟨S128x64, .f32⟩
  | .hbm, ⟨97, _⟩ => ⟨S1x64, .f32⟩
  | .hbm, ⟨98, _⟩ => ⟨S20000x1, .f32⟩
  | .hbm, ⟨99, _⟩ => ⟨S20000x64, .f32⟩
  | .hbm, ⟨100, _⟩ => ⟨S1x1000000, .i32⟩
  | .hbm, ⟨101, _⟩ => ⟨S1000000, .i32⟩
  | .hbm, ⟨102, _⟩ => ⟨S1x1000000, .i32⟩
  | .hbm, ⟨103, _⟩ => ⟨S1000000, .i32⟩
  | .hbm, ⟨104, _⟩ => ⟨S_, .i32⟩
  | .hbm, ⟨105, _⟩ => ⟨S1000000, .i32⟩
  | .hbm, ⟨106, _⟩ => ⟨S1000000, .i1⟩
  | .hbm, ⟨107, _⟩ => ⟨S_, .i32⟩
  | .hbm, ⟨108, _⟩ => ⟨S1000000, .i32⟩
  | .hbm, ⟨109, _⟩ => ⟨S1000000, .i32⟩
  | .hbm, ⟨110, _⟩ => ⟨S1000000, .i32⟩
  | .hbm, ⟨111, _⟩ => ⟨S1000000x1, .i32⟩
  | .hbm, ⟨112, _⟩ => ⟨S1000000x128, .f32⟩
  | .hbm, ⟨113, _⟩ => ⟨S_, .f32⟩
  | .hbm, ⟨114, _⟩ => ⟨S100000x128, .f32⟩
  | .hbm, ⟨115, _⟩ => ⟨S1000000x1, .i32⟩
  | .hbm, ⟨116, _⟩ => ⟨S100000x128, .f32⟩
  | .hbm, ⟨117, _⟩ => ⟨S_, .f32⟩
  | .hbm, ⟨118, _⟩ => ⟨S1000000, .f32⟩
  | .hbm, ⟨119, _⟩ => ⟨S_, .f32⟩
  | .hbm, ⟨120, _⟩ => ⟨S100000, .f32⟩
  | .hbm, ⟨121, _⟩ => ⟨S1000000x1, .i32⟩
  | .hbm, ⟨122, _⟩ => ⟨S100000, .f32⟩
  | .hbm, ⟨123, _⟩ => ⟨S128x64, .f32⟩
  | .hbm, ⟨124, _⟩ => ⟨S128x64, .f32⟩
  | .hbm, ⟨125, _⟩ => ⟨S1x64, .f32⟩
  | .hbm, ⟨126, _⟩ => ⟨S100000x1, .f32⟩
  | .hbm, ⟨127, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x64, .f32⟩
  | .local _ .vmem, ⟨5, _⟩ => ⟨S2000x64, .f32⟩
  | .local _ .vmem, ⟨6, _⟩ => ⟨S128x128, .f32⟩
  | .local _ .vmem, ⟨7, _⟩ => ⟨S1x128, .f32⟩
  | .local _ .vmem, ⟨8, _⟩ => ⟨S64x128, .f32⟩
  | .local _ .vmem, ⟨9, _⟩ => ⟨S2000x128, .f32⟩
  | .local _ .vmem, ⟨10, _⟩ => ⟨S2000x128, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S64x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S2000x128, .f32⟩
  | .local _ .vmem, ⟨27, _⟩ => ⟨S2000x128, .f32⟩
  | .local _ .vmem, ⟨28, _⟩ => ⟨S128x64, .f32⟩
  | .local _ .vmem, ⟨29, _⟩ => ⟨S1x64, .f32⟩
  | .local _ .vmem, ⟨30, _⟩ => ⟨S128x64, .f32⟩
  | .local _ .vmem, ⟨31, _⟩ => ⟨S2000x64, .f32⟩
  | .local _ .vmem, ⟨32, _⟩ => ⟨S2000x64, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S5000x128, .f32⟩
  | .local _ .vmem, ⟨38, _⟩ => ⟨S5000x128, .f32⟩
  | .local _ .vmem, ⟨39, _⟩ => ⟨S128x64, .f32⟩
  | .local _ .vmem, ⟨40, _⟩ => ⟨S1x64, .f32⟩
  | .local _ .vmem, ⟨41, _⟩ => ⟨S128x64, .f32⟩
  | .local _ .vmem, ⟨42, _⟩ => ⟨S5000x64, .f32⟩
  | .local _ .vmem, ⟨43, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_3 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_cst_12 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_c_13 : Ref sig .tc := ⟨.hbm, 104, rfl⟩
abbrev main_v73 : Ref sig .tc := ⟨.hbm, 105, rfl⟩
abbrev main_v74 : Ref sig .tc := ⟨.hbm, 106, rfl⟩
abbrev main_c_14 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_15 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_16 : Ref sig .tc := ⟨.hbm, 117, rfl⟩
abbrev main_v83 : Ref sig .tc := ⟨.hbm, 118, rfl⟩
abbrev main_cst_17 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x128 : S_.BroadcastsInDim S20000x128 (![] : Fin 0 → Fin S20000x128.rank)
  bcast_S_S20000 : S_.BroadcastsInDim S20000 (![] : Fin 0 → Fin S20000.rank)
  transposes_S128x128_S128x128_1_0 : S128x128.Transposes [1, 0] S128x128
  transposes_S128x64_S64x128_1_0 : S128x64.Transposes [1, 0] S64x128
  shapeCasts_S128_S1x128 : S128.ShapeCasts S1x128
  shapeCasts_S20000_S20000x1 : S20000.ShapeCasts S20000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x64_S2000x64_0_0 : ∀ a, (![0, 0] : Fin 2 → Nat) a + S2000x64.size a ≤ S2000x64.size a
  h_S2000x64 : 0 < S2000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S100000x128 : S_.BroadcastsInDim S100000x128 (![] : Fin 0 → Fin S100000x128.rank)
  shapeCasts_S5000x128_S5000x128 : S5000x128.ShapeCasts S5000x128
  broadcasts_S5000x1_S5000x128 : S5000x1.Broadcasts S5000x128
  broadcasts_S1x64_S5000x64 : S1x64.Broadcasts S5000x64
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  scatter_S20000_S1000000x1_S1000000_n_0_0_1_wf : ScatterDims.WF S20000 S1000000x1 S1000000 [] [0] [0] 1
  dot_S2000x128_S128x128_S2000x128_1_0_0_1_n_n_wf : DotDims.WF S2000x128 S128x128 S2000x128 [1] [0] [0] [1] [] []
  dot_S2000x64_S64x128_S2000x128_1_0_0_1_n_n_wf : DotDims.WF S2000x64 S64x128 S2000x128 [1] [0] [0] [1] [] []
  gather_S20000x64_S1000000x1_S1000000x64_1_0_n_n_0_1_164_wf : GatherDims.WF S20000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S2000x128_S128x64_S2000x64_1_0_0_1_n_n_wf : DotDims.WF S2000x128 S128x64 S2000x64 [1] [0] [0] [1] [] []
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S20000x1.size a
  hwx0_1 : ∀ i : grid0.Coords, EltTy.bits .f32 = 32 ∨ (Rect.block (s := S20000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S20000x64.size a
  hwx0_2 : ∀ i : grid0.Coords, EltTy.bits .f32 = 32 ∨ (Rect.block (s := S20000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S20000x128.size a
  hwx0_6 : ∀ i : grid0.Coords, EltTy.bits .f32 = 32 ∨ (Rect.block (s := S20000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S20000x1.size a
  hwx2_1 : ∀ i : grid2.Coords, EltTy.bits .f32 = 32 ∨ (Rect.block (s := S20000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S20000x128.size a
  hwx2_2 : ∀ i : grid2.Coords, EltTy.bits .f32 = 32 ∨ (Rect.block (s := S20000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S20000x64.size a
  hwx2_6 : ∀ i : grid2.Coords, EltTy.bits .f32 = 32 ∨ (Rect.block (s := S20000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .f32 = 32 ∨ (Rect.block (s := S128x64) S128x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v59) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v82) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v87) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v88) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v91) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S20000x64 : Shape := ⟨2, ![20000, 64]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64x128 : Shape := ⟨2, ![64, 128]⟩
abbrev S64 : Shape := ⟨1, ![64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S20000x128 : Shape := ⟨2, ![20000, 128]⟩
abbrev S20000 : Shape := ⟨1, ![20000]⟩
abbrev S20000x1 : Shape := ⟨2, ![20000, 1]⟩
abbrev S1x128 : Shape := ⟨2, ![1, 128]⟩
abbrev S1000000x64 : Shape := ⟨2, ![1000000, 64]⟩
abbrev S100000x64 : Shape := ⟨2, ![100000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 178
  | .vmem => 0
  | .smem => 0
  | _ => 0

abbrev hbmTy0_0 (i : Nat) : BufTy := match i % 128 with
  | 0 => ⟨S100000x128, .f32⟩
  | 1 => ⟨S20000x64, .f32⟩
  | 2 => ⟨S2x1000000, .i32⟩
  | 3 => ⟨S2x1000000, .i32⟩
  | 4 => ⟨S128x128, .f32⟩
  | 5 => ⟨S128, .f32⟩
  | 6 => ⟨S128x64, .f32⟩
  | 7 => ⟨S128x64, .f32⟩
  | 8 => ⟨S128, .f32⟩
  | 9 => ⟨S128x128, .f32⟩
  | 10 => ⟨S64x128, .f32⟩
  | 11 => ⟨S64, .f32⟩
  | 12 => ⟨S64x128, .f32⟩
  | 13 => ⟨S64x128, .f32⟩
  | 14 => ⟨S64, .f32⟩
  | 15 => ⟨S64x128, .f32⟩
  | 16 => ⟨S1x1000000, .i32⟩
  | 17 => ⟨S1000000, .i32⟩
  | 18 => ⟨S_, .i32⟩
  | 19 => ⟨S1000000, .i32⟩
  | 20 => ⟨S1000000, .i1⟩
  | 21 => ⟨S_, .i32⟩
  | 22 => ⟨S1000000, .i32⟩
  | 23 => ⟨S1000000, .i32⟩
  | 24 => ⟨S1000000, .i32⟩
  | 25 => ⟨S1000000x1, .i32⟩
  | 26 => ⟨S1000000x128, .f32⟩
  | 27 => ⟨S1x1000000, .i32⟩
  | 28 => ⟨S1000000, .i32⟩
  | 29 => ⟨S_, .f32⟩
  | 30 => ⟨S20000x128, .f32⟩
  | 31 => ⟨S1000000x1, .i32⟩
  | 32 => ⟨S20000x128, .f32⟩
  | 33 => ⟨S_, .f32⟩
  | 34 => ⟨S1000000, .f32⟩
  | 35 => ⟨S1x1000000, .i32⟩
  | 36 => ⟨S1000000, .i32⟩
  | 37 => ⟨S_, .f32⟩
  | 38 => ⟨S20000, .f32⟩
  | 39 => ⟨S1000000x1, .i32⟩
  | 40 => ⟨S20000, .f32⟩
  | 41 => ⟨S_, .f32⟩
  | 42 => ⟨S20000, .f32⟩
  | 43 => ⟨S20000, .f32⟩
  | 44 => ⟨S20000x1, .f32⟩
  | 45 => ⟨S20000x128, .f32⟩
  | 46 => ⟨S20000x128, .f32⟩
  | 47 => ⟨S128x128, .f32⟩
  | 48 => ⟨S20000x128, .f32⟩
  | 49 => ⟨S1x128, .f32⟩
  | 50 => ⟨S20000x128, .f32⟩
  | 51 => ⟨S20000x128, .f32⟩
  | 52 => ⟨S64x128, .f32⟩
  | 53 => ⟨S20000x128, .f32⟩
  | 54 => ⟨S20000x128, .f32⟩
  | 55 => ⟨S1x1000000, .i32⟩
  | 56 => ⟨S1000000, .i32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x64, .f32⟩
  | 66 => ⟨S1x1000000, .i32⟩
  | 67 => ⟨S1000000, .i32⟩
  | 68 => ⟨S_, .f32⟩
  | 69 => ⟨S100000x64, .f32⟩
  | 70 => ⟨S1000000x1, .i32⟩
  | 71 => ⟨S100000x64, .f32⟩
  | 72 => ⟨S_, .f32⟩
  | 73 => ⟨S1000000, .f32⟩
  | 74 => ⟨S1x1000000, .i32⟩
  | 75 => ⟨S1000000, .i32⟩
  | 76 => ⟨S_, .f32⟩
  | 77 => ⟨S100000, .f32⟩
  | 78 => ⟨S1000000x1, .i32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x64, .f32⟩
  | 85 => ⟨S100000x64, .f32⟩
  | 86 => ⟨S64x128, .f32⟩
  | 87 => ⟨S100000x128, .f32⟩
  | 88 => ⟨S1x128, .f32⟩
  | 89 => ⟨S100000x128, .f32⟩
  | 90 => ⟨S100000x128, .f32⟩
  | 91 => ⟨S128x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .f32⟩
  | 98 => ⟨S20000x128, .f32⟩
  | 99 => ⟨S20000x128, .f32⟩
  | 100 => ⟨S1x1000000, .i32⟩
  | 101 => ⟨S1000000, .i32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x128, .f32⟩
  | 111 => ⟨S1x1000000, .i32⟩
  | 112 => ⟨S1000000, .i32⟩
  | 113 => ⟨S_, .f32⟩
  | 114 => ⟨S20000x128, .f32⟩
  | 115 => ⟨S1000000x1, .i32⟩
  | 116 => ⟨S20000x128, .f32⟩
  | 117 => ⟨S_, .f32⟩
  | 118 => ⟨S1000000, .f32⟩
  | 119 => ⟨S1x1000000, .i32⟩
  | 120 => ⟨S1000000, .i32⟩
  | 121 => ⟨S_, .f32⟩
  | 122 => ⟨S20000, .f32⟩
  | 123 => ⟨S1000000x1, .i32⟩
  | 124 => ⟨S20000, .f32⟩
  | 125 => ⟨S_, .f32⟩
  | 126 => ⟨S20000, .f32⟩
  | 127 => ⟨S20000, .f32⟩
  | _ => ⟨S100000x128, .f32⟩

abbrev hbmTy0_1 (i : Nat) : BufTy := match i % 128 with
  | 0 => ⟨S20000x1, .f32⟩
  | 1 => ⟨S20000x128, .f32⟩
  | 2 => ⟨S20000x128, .f32⟩
  | 3 => ⟨S128x64, .f32⟩
  | 4 => ⟨S20000x64, .f32⟩
  | 5 => ⟨S1x64, .f32⟩
  | 6 => ⟨S20000x64, .f32⟩
  | 7 => ⟨S20000x64, .f32⟩
  | 8 => ⟨S128x64, .f32⟩
  | 9 => ⟨S20000x64, .f32⟩
  | 10 => ⟨S20000x64, .f32⟩
  | 11 => ⟨S1x1000000, .i32⟩
  | 12 => ⟨S1000000, .i32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x128, .f32⟩
  | 22 => ⟨S1x1000000, .i32⟩
  | 23 => ⟨S1000000, .i32⟩
  | 24 => ⟨S_, .f32⟩
  | 25 => ⟨S100000x128, .f32⟩
  | 26 => ⟨S1000000x1, .i32⟩
  | 27 => ⟨S100000x128, .f32⟩
  | 28 => ⟨S_, .f32⟩
  | 29 => ⟨S1000000, .f32⟩
  | 30 => ⟨S1x1000000, .i32⟩
  | 31 => ⟨S1000000, .i32⟩
  | 32 => ⟨S_, .f32⟩
  | 33 => ⟨S100000, .f32⟩
  | 34 => ⟨S1000000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S128x64, .f32⟩
  | 43 => ⟨S100000x64, .f32⟩
  | 44 => ⟨S1x64, .f32⟩
  | 45 => ⟨S100000x64, .f32⟩
  | 46 => ⟨S100000x64, .f32⟩
  | 47 => ⟨S128x64, .f32⟩
  | 48 => ⟨S100000x64, .f32⟩
  | 49 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_4 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_6 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call0_cst : Ref sig .tc := ⟨.hbm, 94, rfl⟩
abbrev main_call0_v0 : Ref sig .tc := ⟨.hbm, 95, rfl⟩
abbrev main_v66 : Ref sig .tc := ⟨.hbm, 96, rfl⟩
abbrev main_call1_cst : Ref sig .tc := ⟨.hbm, 97, rfl⟩
abbrev main_call1_v0 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_10 : Ref sig .tc := ⟨.hbm, 102, rfl⟩
abbrev main_v70 : Ref sig .tc := ⟨.hbm, 103, rfl⟩
abbrev main_v71 : Ref sig .tc := ⟨.hbm, 104, rfl⟩
abbrev main_c_11 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_12 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_13 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_14 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_15 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_16 : Ref sig .tc := ⟨.hbm, 141, rfl⟩
abbrev main_v103 : Ref sig .tc := ⟨.hbm, 142, rfl⟩
abbrev main_v104 : Ref sig .tc := ⟨.hbm, 143, rfl⟩
abbrev main_c_17 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_18 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_19 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_20 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_21 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  bcast_S_S20000x128 : S_.BroadcastsInDim S20000x128 (![] : Fin 0 → Fin S20000x128.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  transposes_S128x128_S128x128_1_0 : S128x128.Transposes [1, 0] S128x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  transposes_S128x64_S64x128_1_0 : S128x64.Transposes [1, 0] S64x128
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S100000x1_S100000x128_0_1 : S100000x1.BroadcastsInDim S100000x128 (![0, 1] : Fin 2 → Fin S100000x128.rank)
  bcast_S1x64_S100000x64_0_1 : S1x64.BroadcastsInDim S100000x64 (![0, 1] : Fin 2 → Fin S100000x64.rank)
  gather_S100000x128_S1000000x1_S1000000x128_1_0_n_n_0_1_1128_wf : GatherDims.WF S100000x128 S1000000x1 S1000000x128 [1] [0] [] [0] [] 1 ![1, 128]
  scatter_S20000x128_S1000000x1_S1000000x128_1_0_0_1_wf : ScatterDims.WF S20000x128 S1000000x1 S1000000x128 [1] [0] [0] 1
  scatter_S20000_S1000000x1_S1000000_n_0_0_1_wf : ScatterDims.WF S20000 S1000000x1 S1000000 [] [0] [0] 1
  dot_S20000x128_S128x128_S20000x128_1_0_0_1_n_n_wf : DotDims.WF S20000x128 S128x128 S20000x128 [1] [0] [0] [1] [] []
  dot_S20000x64_S64x128_S20000x128_1_0_0_1_n_n_wf : DotDims.WF S20000x64 S64x128 S20000x128 [1] [0] [0] [1] [] []
  gather_S20000x64_S1000000x1_S1000000x64_1_0_n_n_0_1_164_wf : GatherDims.WF S20000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  dot_S20000x128_S128x64_S20000x64_1_0_0_1_n_n_wf : DotDims.WF S20000x128 S128x64 S20000x64 [1] [0] [0] [1] [] []
  gather_S20000x128_S1000000x1_S1000000x128_1_0_n_n_0_1_1128_wf : GatherDims.WF S20000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x64_S100000x64_1_0_0_1_n_n_wf : DotDims.WF S100000x128 S128x64 S100000x64 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def scatter_S20000_S1000000x1_S1000000_n_0_0_1 : ScatterDims S20000 S1000000x1 S1000000 where
  updateWindowDims := []
  insertedWindowDims := [0]
  scatterDimsToOperandDims := [0]
  indexVectorDim := 1
  wf := scatter_S20000_S1000000x1_S1000000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S20000x64_S64x128_S20000x128_1_0_0_1_n_n : DotDims S20000x64 S64x128 S20000x128 where
  lhsContracting := [1]
  rhsContracting := [0]
  lhsNonContracting := [0]
  rhsNonContracting := [1]
  lhsBatch := []
  rhsBatch := []
  wf := dot_S20000x64_S64x128_S20000x128_1_0_0_1_n_n_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S20000x128_S128x64_S20000x64_1_0_0_1_n_n : DotDims S20000x128 S128x64 S20000x64 where
  lhsContracting := [1]
  rhsContracting := [0]
  lhsNonContracting := [0]
  rhsNonContracting := [1]
  lhsBatch := []
  rhsBatch := []
  wf := dot_S20000x128_S128x64_S20000x64_1_0_0_1_n_n_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel's run with its two results named: every weakly fair execution of the program ends with each result
  array at the contents the last region's write-backs leave (the buffer contents at the last segment boundary, `Gen.W8`), and with
  the argument arrays as launched.  The segments, the thread states at their boundaries and the launch are those of the
  program's frame; only the final state is read at two more buffers.
-/
import proofs.«100673_j49950469652729_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, the arguments unchanged. -/
theorem run : θ_run defs (onTc (τ := τ) (main (F := F))) ⟨m, fun _ => 0, ρ⟩ (fun r => ∀ c : Dev nD,
      r.2.mem ((c.tc : Thread nD τ).loc main_v91) = W8 m ρ c (Proc.devRef .tc main_v91)
      ∧ r.2.mem ((c.tc : Thread nD τ).loc main_v68) = W8 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v91 (by decide)),
       h c _ (mem_uc main_v68 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.RunValue

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibBroadcast.lean ====
/-
  Small layout operations read at an index: a vector as a row, a row or a vector broadcast down the rows, a vector as
  a column, a column broadcast across the columns, and a splat constant. Generic in the extents.
-/
import Idealize.ShloMosaic.PureOps.Ideal
import Idealize.ShloMosaic.Lib.Pipeline.Value
import Idealize.ShloMosaic.Lib.ValueIdx

noncomputable section

namespace Cert.Layout

open Idealize.ShloMosaic Idealize.ShloMosaic.ValueIdx

variable {α : Type} {m n : Nat}

/-- A vector `[n]` reshaped to a row `[1, n]`, read at `(0, k)`. -/
theorem row_of_vec_apply (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]; show k.val = 0 * n + k.val; omega)

/-- A vector `[n]` as a row `[1, n]` broadcast down `m` rows, read at `(p, k)`. -/
theorem rows_of_vec_apply (x : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (k : Fin n) :
    broadcastInDim ⟨2, ![m, n]⟩ ![0, 1] h2 (broadcastInDim ⟨2, ![1, n]⟩ ![1] h1 x) (ix2 p k) = x (ix1 k) := by
  have hk : k.val < n := k.isLt
  refine (broadcastInDim_apply ![0, 1] h2 _ (ix2 p k) (ix2 0 k) (fun a => ?_)).trans
    (broadcastInDim_apply ![1] h1 x (ix2 0 k) (ix1 k) (fun a => ?_))
  · match a with
    | ⟨0, _⟩ => show (0 : ℕ) = if (1 : ℕ) = 1 then 0 else _; rw [if_pos rfl]
    | ⟨1, _⟩ =>
      show k.val = if n = 1 then 0 else k.val
      split
      · omega
      · rfl
  · match a with
    | ⟨0, _⟩ =>
      show k.val = if n = 1 then 0 else k.val
      split
      · omega
      · rfl

/-- A per-row vector `[m]` as a column `[m, 1]`, read at `(e, 0)`. -/
theorem col_of_vec_apply (v : (⟨1, ![m]⟩ : Shape).Idx → α)
    (h : (⟨1, ![m]⟩ : Shape).BroadcastsInDim ⟨2, ![m, 1]⟩ ![0]) (e : Fin m) :
    broadcastInDim ⟨2, ![m, 1]⟩ ![0] h v (ix2 e 0) = v (ix1 e) := by
  have he : e.val < m := e.isLt
  refine broadcastInDim_apply ![0] h v (ix2 e 0) (ix1 e) (fun a => ?_)
  match a with
  | ⟨0, _⟩ =>
    show e.val = if m = 1 then 0 else e.val
    split
    · omega
    · rfl

/-- A column `[m, 1]` broadcast across `n` columns, read at `(e, c)`. -/
theorem cols_of_col_apply (w : (⟨2, ![m, 1]⟩ : Shape).Idx → α)
    (h : (⟨2, ![m, 1]⟩ : Shape).BroadcastsInDim ⟨2, ![m, n]⟩ ![0, 1]) (e : Fin m) (c : Fin n) :
    broadcastInDim ⟨2, ![m, n]⟩ ![0, 1] h w (ix2 e c) = w (ix2 e 0) := by
  have he : e.val < m := e.isLt
  refine broadcastInDim_apply ![0, 1] h w (ix2 e c) (ix2 e 0) (fun a => ?_)
  match a with
  | ⟨0, _⟩ =>
    show e.val = if m = 1 then 0 else e.val
    split
    · omega
    · rfl
  | ⟨1, _⟩ => show (0 : ℕ) = if (1 : ℕ) = 1 then 0 else _; rw [if_pos rfl]

/-- A splat of a float word, read anywhere, is the word read as an extended real. -/
theorem splat_apply {s : Shape} (hb : (⟨0, ![]⟩ : Shape).BroadcastsInDim s (![] : Fin 0 → Fin s.rank)) (w : BitVec 32) (i : s.Idx) :
    broadcastInDim s ![] hb (constant (F := Ideal) ⟨0, ![]⟩ .f32 w) i = Ideal.ofBits .f32 w := rfl

end Cert.Layout

end
-- ==== Proof.LibSageLayer.lean ====
/-
  One mean-aggregating graph layer, read over the extended reals as ONE function of its six operands, general in the
  four extents (nodes N, source width Dm, destination width Dd, output width Dh):

      affine S C H Wl B Wr (n, j) = (Σ_k (S(n,k) / max(C(n,0), 1)) · Wl(k,j) + B(0,j)) + Σ_k H(n,k) · Wr(k,j)

  where S holds the summed neighbour rows, C the neighbour counts as a column, H the node's own rows, Wl and Wr the two
  weight matrices (already transposed) and B the bias as a one-row matrix; `reluAffine` clamps it below at zero.

  Two spellings meet in it.  A tiled kernel multiplies each summed row by the reciprocal 1 / max(count, 1) before
  the product; the host divides the row by max(count, 1).  The divisor is at least 1 in the order of the extended reals,
  hence never 0, so the quotient x / y is x · y⁻¹ on both sides and 1 · y⁻¹ = y⁻¹: the two agree on EVERY extended
  real, infinite entries included — no finiteness is asked anywhere.  A kernel working on a block of rows computes the
  entries of those rows (`affine_rows_eq`).
-/
import proofs.«100673_j49950469652729_1_alg».proof.Proof.LibMatProd
import proofs.«100673_j49950469652729_1_alg».proof.Proof.LibBroadcastTo
import proofs.«100673_j49950469652729_1_alg».proof.Proof.LibBroadcast
import Idealize.ShloMosaic.Lib.IdealHost
import Idealize.ShloMosaic.PureOps.Contract
import Idealize.ShloMosaic.Lib.Pipeline.Value

noncomputable section

open scoped BigOperators

namespace Cert.Sage

open Idealize.ShloMosaic Idealize.ShloMosaic.ValueIdx Cert.MatProd

/-- A matrix of extended reals with `M` rows and `N` columns. -/
abbrev Mat (M N : Nat) : Type := (⟨2, ![M, N]⟩ : Shape).Idx → EReal

/-- The float word of 1.0 read as an extended real. -/
abbrev one : EReal := Ideal.ofBits .f32 0x3F800000#32
/-- The float word of 0.0 read as an extended real. -/
abbrev zero : EReal := Ideal.ofBits .f32 0x00000000#32

theorem one_eq : one = 1 := Ideal.ofBits_one_f32

/-- A count clamped below at 1 is not 0. -/
theorem clamp_ne_zero (c : EReal) : max c one ≠ 0 := by
  rw [one_eq]
  have h : (0 : EReal) < max c 1 := lt_of_lt_of_le zero_lt_one (le_max_right c 1)
  exact ne_of_gt h

/-- THE LAW: multiplying by the reciprocal of a clamped count is dividing by it, on every extended real. -/
theorem recip_law (s c : EReal) : s * Ideal.div one (max c one) = Ideal.div s (max c one) := by
  unfold Ideal.div
  rw [if_neg (clamp_ne_zero c), if_neg (clamp_ne_zero c), one_eq, one_mul]

variable {N Dm Dd Dh : Nat}

/-- The summed rows divided by the clamped counts. -/
def mean {D : Nat} (S : Mat N D) (C : Mat N 1) : Mat N D := fun i => Ideal.div (S i) (max (C (ix2 (i 0) 0)) one)

theorem mean_apply {D : Nat} (S : Mat N D) (C : Mat N 1) (n : Fin N) (k : Fin D) :
    mean S C (ix2 n k) = Ideal.div (S (ix2 n k)) (max (C (ix2 n 0)) one) := rfl

/-- The layer before its activation. -/
def affine (S : Mat N Dm) (C : Mat N 1) (H : Mat N Dd) (Wl : Mat Dm Dh) (B : Mat 1 Dh) (Wr : Mat Dd Dh) : Mat N Dh :=
  fun i => (prod (mean S C) Wl i + B (ix2 0 (i 1))) + prod H Wr i

/-- The layer clamped below at zero. -/
def reluAffine (S : Mat N Dm) (C : Mat N 1) (H : Mat N Dd) (Wl : Mat Dm Dh) (B : Mat 1 Dh) (Wr : Mat Dd Dh) : Mat N Dh :=
  fun i => max (affine S C H Wl B Wr i) zero

theorem affine_apply (S : Mat N Dm) (C : Mat N 1) (H : Mat N Dd) (Wl : Mat Dm Dh) (B : Mat 1 Dh) (Wr : Mat Dd Dh)
    (n : Fin N) (j : Fin Dh) :
    affine S C H Wl B Wr (ix2 n j)
      = ((∑ k : Fin Dm, Ideal.div (S (ix2 n k)) (max (C (ix2 n 0)) one) * Wl (ix2 k j)) + B (ix2 0 j))
        + ∑ k : Fin Dd, H (ix2 n k) * Wr (ix2 k j) := rfl

/-- Row `p` of the layer computed on a BLOCK of rows is row `n` of the layer on the whole arrays, when row `p` of each
    row-blocked operand is row `n` of the whole one (the weights and the bias are not blocked). -/
theorem affine_rows_eq {T : Nat} (S : Mat N Dm) (C : Mat N 1) (H : Mat N Dd) (Wl : Mat Dm Dh) (B : Mat 1 Dh) (Wr : Mat Dd Dh)
    (S' : Mat T Dm) (C' : Mat T 1) (H' : Mat T Dd) (p : Fin T) (n : Fin N) (j : Fin Dh)
    (hS : ∀ k : Fin Dm, S' (ix2 p k) = S (ix2 n k)) (hC : C' (ix2 p 0) = C (ix2 n 0))
    (hH : ∀ k : Fin Dd, H' (ix2 p k) = H (ix2 n k)) :
    affine S' C' H' Wl B Wr (ix2 p j) = affine S C H Wl B Wr (ix2 n j) := by
  rw [affine_apply, affine_apply, hC]
  congr 1
  · congr 1
    exact Finset.sum_congr rfl fun k _ => by rw [hS k]
  · exact Finset.sum_congr rfl fun k _ => by rw [hH k]

theorem reluAffine_rows_eq {T : Nat} (S : Mat N Dm) (C : Mat N 1) (H : Mat N Dd) (Wl : Mat Dm Dh) (B : Mat 1 Dh) (Wr : Mat Dd Dh)
    (S' : Mat T Dm) (C' : Mat T 1) (H' : Mat T Dd) (p : Fin T) (n : Fin N) (j : Fin Dh)
    (hS : ∀ k : Fin Dm, S' (ix2 p k) = S (ix2 n k)) (hC : C' (ix2 p 0) = C (ix2 n 0))
    (hH : ∀ k : Fin Dd, H' (ix2 p k) = H (ix2 n k)) :
    reluAffine S' C' H' Wl B Wr (ix2 p j) = reluAffine S C H Wl B Wr (ix2 n j) := by
  show max (affine S' C' H' Wl B Wr (ix2 p j)) zero = max (affine S C H Wl B Wr (ix2 n j)) zero
  rw [affine_rows_eq S C H Wl B Wr S' C' H' p n j hS hC hH]

/-- The same with the unblocked operands given as equal arrays (a block that is the whole array). -/
theorem affine_block_eq {T : Nat} (S : Mat N Dm) (C : Mat N 1) (H : Mat N Dd) (Wl : Mat Dm Dh) (B : Mat 1 Dh) (Wr : Mat Dd Dh)
    (S' : Mat T Dm) (C' : Mat T 1) (H' : Mat T Dd) (Wl' : Mat Dm Dh) (B' : Mat 1 Dh) (Wr' : Mat Dd Dh)
    (p : Fin T) (n : Fin N) (j : Fin Dh)
    (hS : ∀ k : Fin Dm, S' (ix2 p k) = S (ix2 n k)) (hC : C' (ix2 p 0) = C (ix2 n 0))
    (hH : ∀ k : Fin Dd, H' (ix2 p k) = H (ix2 n k)) (hWl : Wl' = Wl) (hB : B' = B) (hWr : Wr' = Wr) :
    affine S' C' H' Wl' B' Wr' (ix2 p j) = affine S C H Wl B Wr (ix2 n j) := by
  subst hWl hB hWr
  exact affine_rows_eq S C H Wl' B' Wr' S' C' H' p n j hS hC hH

theorem reluAffine_block_eq {T : Nat} (S : Mat N Dm) (C : Mat N 1) (H : Mat N Dd) (Wl : Mat Dm Dh) (B : Mat 1 Dh) (Wr : Mat Dd Dh)
    (S' : Mat T Dm) (C' : Mat T 1) (H' : Mat T Dd) (Wl' : Mat Dm Dh) (B' : Mat 1 Dh) (Wr' : Mat Dd Dh)
    (p : Fin T) (n : Fin N) (j : Fin Dh)
    (hS : ∀ k : Fin Dm, S' (ix2 p k) = S (ix2 n k)) (hC : C' (ix2 p 0) = C (ix2 n 0))
    (hH : ∀ k : Fin Dd, H' (ix2 p k) = H (ix2 n k)) (hWl : Wl' = Wl) (hB : B' = B) (hWr : Wr' = Wr) :
    reluAffine S' C' H' Wl' B' Wr' (ix2 p j) = reluAffine S C H Wl B Wr (ix2 n j) := by
  subst hWl hB hWr
  exact reluAffine_rows_eq S C H Wl' B' Wr' S' C' H' p n j hS hC hH

/-! ## The kernel's spelling -/

/-- A tiled kernel's body — the summed rows times the broadcast reciprocal of the clamped count column, a matrix product into a zero
    accumulator, plus the bias row broadcast down the rows, plus a second product into a zero accumulator — is `affine`. -/
theorem kernel_affine {T : Nat} (dl : DotDims ⟨2, ![T, Dm]⟩ ⟨2, ![Dm, Dh]⟩ ⟨2, ![T, Dh]⟩) (hdl : dl = DotDims.plain T Dm Dh)
    (dr : DotDims ⟨2, ![T, Dd]⟩ ⟨2, ![Dd, Dh]⟩ ⟨2, ![T, Dh]⟩) (hdr : dr = DotDims.plain T Dd Dh)
    (hc : (⟨2, ![T, 1]⟩ : Shape).Broadcasts ⟨2, ![T, Dm]⟩) (hb : (⟨2, ![1, Dh]⟩ : Shape).Broadcasts ⟨2, ![T, Dh]⟩)
    (x0 : FVec Ideal ⟨2, ![T, Dm]⟩ .f32) (x1 : FVec Ideal ⟨2, ![T, 1]⟩ .f32) (x2 : FVec Ideal ⟨2, ![T, Dd]⟩ .f32)
    (x3 : FVec Ideal ⟨2, ![Dm, Dh]⟩ .f32) (x4 : FVec Ideal ⟨2, ![1, Dh]⟩ .f32) (x5 : FVec Ideal ⟨2, ![Dd, Dh]⟩ .f32) :
    addf (addf (matmul dl none
            (truncf .bf16 (mulf x0 (broadcastTo ⟨2, ![T, Dm]⟩
              (divf (broadcast ⟨2, ![T, 1]⟩ (Scalar.ofBits (F := Ideal) .f32 0x3F800000#32))
                (maximumf x1 (broadcast ⟨2, ![T, 1]⟩ (Scalar.ofBits (F := Ideal) .f32 0x3F800000#32)))) hc)) (by decide))
            (truncf .bf16 x3 (by decide)) (constant ⟨2, ![T, Dh]⟩ .f32 0x00000000#32))
          (broadcastTo ⟨2, ![T, Dh]⟩ x4 hb))
        (matmul dr none (truncf .bf16 x2 (by decide)) (truncf .bf16 x5 (by decide)) (constant ⟨2, ![T, Dh]⟩ .f32 0x00000000#32))
      = affine x0 x1 x2 x3 x4 x5 := by
  subst hdl hdr
  funext i
  obtain ⟨p, q, rfl⟩ : ∃ (p : Fin T) (q : Fin Dh), i = ix2 p q := ⟨i 0, i 1, eq_ix2 i⟩
  show (FloatOps.matmul (DotDims.plain T Dm Dh) none
          (fun y => x0 y * broadcastTo ⟨2, ![T, Dm]⟩
              (fun z => Ideal.div one (max (x1 z) one)) hc y) x3 (constant ⟨2, ![T, Dh]⟩ .f32 0x00000000#32) (ix2 p q)
        + broadcastTo ⟨2, ![T, Dh]⟩ x4 hb (ix2 p q))
      + FloatOps.matmul (DotDims.plain T Dd Dh) none x2 x5 (constant ⟨2, ![T, Dh]⟩ .f32 0x00000000#32) (ix2 p q) = _
  rw [matmul_plain_zero_apply, matmul_plain_zero_apply, Cert.BroadcastTo.row_apply, affine_apply]
  congr 2
  refine Finset.sum_congr rfl fun k _ => ?_
  rw [Cert.BroadcastTo.col_apply, recip_law]

/-! ## The host's spelling -/

/-- A vector `[n]` reshaped to a column `[n, 1]`, read at `(e, 0)`. -/
theorem col_of_vec_cast_apply {α : Type} {n : Nat} (x : (⟨1, ![n]⟩ : Shape).Idx → α)
    (h : (⟨1, ![n]⟩ : Shape).ShapeCasts ⟨2, ![n, 1]⟩) (e : Fin n) :
    shapeCast ⟨2, ![n, 1]⟩ x h (ix2 e 0) = x (ix1 e) :=
  shapeCast_apply x h (ix2 e 0) (ix1 e) (by
    rw [Shape.rowMajor_val_two, Shape.rowMajor_val_one]; show e.val = e.val * 1 + 0; omega)

/-- The host's layer — the summed rows divided by the clamped count vector laid out as a column and spread across the columns,
    a `dot_general`, plus the bias vector laid out as a row and spread down the rows, plus a second `dot_general` — is
    `affine` of the count vector reshaped to a column and the bias vector reshaped to a row. -/
theorem host_affine (dl : DotDims ⟨2, ![N, Dm]⟩ ⟨2, ![Dm, Dh]⟩ ⟨2, ![N, Dh]⟩) (hdl : dl = DotDims.plain N Dm Dh)
    (dr : DotDims ⟨2, ![N, Dd]⟩ ⟨2, ![Dd, Dh]⟩ ⟨2, ![N, Dh]⟩) (hdr : dr = DotDims.plain N Dd Dh)
    (S : FVec Ideal ⟨2, ![N, Dm]⟩ .f32) (cnt : FVec Ideal ⟨1, ![N]⟩ .f32) (H : FVec Ideal ⟨2, ![N, Dd]⟩ .f32)
    (Wl : FVec Ideal ⟨2, ![Dm, Dh]⟩ .f32) (bl : FVec Ideal ⟨1, ![Dh]⟩ .f32) (Wr : FVec Ideal ⟨2, ![Dd, Dh]⟩ .f32)
    (h0 : (⟨0, ![]⟩ : Shape).BroadcastsInDim ⟨1, ![N]⟩ (![] : Fin 0 → Fin 1))
    (hc1 : (⟨1, ![N]⟩ : Shape).BroadcastsInDim ⟨2, ![N, 1]⟩ ![0])
    (hc2 : (⟨2, ![N, 1]⟩ : Shape).BroadcastsInDim ⟨2, ![N, Dm]⟩ ![0, 1])
    (hb1 : (⟨1, ![Dh]⟩ : Shape).BroadcastsInDim ⟨2, ![1, Dh]⟩ ![1])
    (hb2 : (⟨2, ![1, Dh]⟩ : Shape).BroadcastsInDim ⟨2, ![N, Dh]⟩ ![0, 1])
    (hcr : (⟨1, ![N]⟩ : Shape).ShapeCasts ⟨2, ![N, 1]⟩) (hbr : (⟨1, ![Dh]⟩ : Shape).ShapeCasts ⟨2, ![1, Dh]⟩) :
    addf (addf (Host.dotGeneral dl none
            (Host.divf S (broadcastInDim ⟨2, ![N, Dm]⟩ ![0, 1] hc2 (broadcastInDim ⟨2, ![N, 1]⟩ ![0] hc1
              (maximumf cnt (broadcastInDim ⟨1, ![N]⟩ ![] h0 (constant (F := Ideal) ⟨0, ![]⟩ .f32 0x3F800000#32)))))) Wl)
          (broadcastInDim ⟨2, ![N, Dh]⟩ ![0, 1] hb2 (broadcastInDim ⟨2, ![1, Dh]⟩ ![1] hb1 bl)))
        (Host.dotGeneral dr none H Wr)
      = affine S (shapeCast ⟨2, ![N, 1]⟩ cnt hcr) H Wl (shapeCast ⟨2, ![1, Dh]⟩ bl hbr) Wr := by
  subst hdl hdr
  funext i
  obtain ⟨p, q, rfl⟩ : ∃ (p : Fin N) (q : Fin Dh), i = ix2 p q := ⟨i 0, i 1, eq_ix2 i⟩
  show (FloatOps.dotGeneral (DotDims.plain N Dm Dh) none .single
          (fun y => Ideal.div (S y) (broadcastInDim ⟨2, ![N, Dm]⟩ ![0, 1] hc2 (broadcastInDim ⟨2, ![N, 1]⟩ ![0] hc1
              (fun z => max (cnt z) one)) y)) Wl (ix2 p q)
        + broadcastInDim ⟨2, ![N, Dh]⟩ ![0, 1] hb2 (broadcastInDim ⟨2, ![1, Dh]⟩ ![1] hb1 bl) (ix2 p q))
      + FloatOps.dotGeneral (DotDims.plain N Dd Dh) none .single H Wr (ix2 p q) = _
  rw [dotGeneral_plain_apply, dotGeneral_plain_apply, Cert.Layout.rows_of_vec_apply, affine_apply,
    Cert.Layout.row_of_vec_apply, col_of_vec_cast_apply]
  congr 2
  refine Finset.sum_congr rfl fun k _ => ?_
  rw [Cert.Layout.cols_of_col_apply, Cert.Layout.col_of_vec_apply]

/-- The host's clamp below at zero (a maximum with the broadcast zero constant) of a matrix, entry by entry. -/
theorem host_relu (X : FVec Ideal ⟨2, ![N, Dh]⟩ .f32)
    (h0 : (⟨0, ![]⟩ : Shape).BroadcastsInDim ⟨2, ![N, Dh]⟩ (![] : Fin 0 → Fin 2)) :
    maximumf X (broadcastInDim ⟨2, ![N, Dh]⟩ ![] h0 (constant (F := Ideal) ⟨0, ![]⟩ .f32 0x00000000#32))
      = fun i => max (X i) zero := rfl

/-- The kernel's clamp below at zero (a maximum with the splat zero) of a matrix, entry by entry. -/
theorem kernel_relu {T : Nat} (X : FVec Ideal ⟨2, ![T, Dh]⟩ .f32) :
    maximumf X (broadcast ⟨2, ![T, Dh]⟩ (Scalar.ofBits (F := Ideal) .f32 0x00000000#32))
      = fun i => max (X i) zero := rfl

end Cert.Sage

end
-- ==== Proof.KRegion0.lean ====
/-
  What region 0 leaves in its output array, as ONE function of the arrays it finds at its entry: the body computes, for
  each block of 2000 node rows, the mean-aggregating layer (LibSageLayer) of that block's summed rows, count column and own
  rows with the whole weight matrices and bias row; row r of block t is node t * 2000 + r, the 10 blocks tile the 20000 rows, so
  the array ends holding the layer of the whole arrays, clamped below at zero.  Stated at any entry contents `V`.
-/
import proofs.«100673_j49950469652729_1_alg».proof.Proof.Gen.KernelIdeal.Frame
import proofs.«100673_j49950469652729_1_alg».proof.Proof.LibSageLayer
import Idealize.ShloMosaic.Lib.Pipeline.Value
import Idealize.ShloMosaic.Lib.ValueIdx

set_option maxRecDepth 16384

noncomputable section

namespace Cert.KernelIdeal.RegionValue0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block is the layer of the block's operands. -/
theorem pay_eq (x0 : Vec Ideal S2000x128 .f32) (x1 : Vec Ideal S2000x1 .f32) (x2 : Vec Ideal S2000x64 .f32)
    (x3 : Vec Ideal S128x128 .f32) (x4 : Vec Ideal S1x128 .f32) (x5 : Vec Ideal S64x128 .f32) :
    k0_pay1 (F := Ideal) x1 x0 x3 x4 x2 x5 = Sage.reluAffine x0 x1 x2 x3 x4 x5 := by
  unfold k0_pay1
  simp only [shapeCast_self]
  exact congrArg (fun X => maximumf X (broadcast S2000x128 (Scalar.ofBits (F := Ideal) .f32 0x00000000#32)))
    (Sage.kernel_affine dot_S2000x128_S128x128_S2000x128_1_0_0_1_n_n rfl dot_S2000x64_S64x128_S2000x128_1_0_0_1_n_n rfl _ _ x0 x1 x2 x3 x4 x5)

/-- The printed index maps, decided over the grid: the row-blocked windows are at block `t`, the others at block 0. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

/-- Every block row of the output is some point's. -/
theorem idx_onto : ∀ (q0 : Fin 10), ∃ t : Fin cfg0.N, win0_6.index t = ![q0.val, 0] :=
  (by decide +kernel : ∀ (q0 : Fin 10), ∃ t : Fin grid0.N, win0_6.index t = ![q0.val, 0])

/-- WHAT POINT `t` WRITES BACK is block `t` of the layer of the arrays as the region finds them. -/
theorem flushed_eq (c : Dev nD) (t : Fin cfg0.N) :
    (dat0 V c).flushed 6 t = ((cfg0.win 6).blk t).view.read (Elt Ideal) (Sage.reluAffine (V c main_v13) (V c main_v21) (V c main_arg1) (V c main_v18) (V c main_v20) (V c main_v19)) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz, View.ld_unit_zero (S := S2000x64) hz, View.ld_unit_zero (S := S128x128) hz, View.ld_unit_zero (S := S1x128) hz, View.ld_unit_zero (S := S64x128) hz]
  rw [pay_eq]
  obtain ⟨e00, e01, e10, e11, e20, e21, e30, e31, e40, e41, e50, e51, e60, e61⟩ := idx_facts t
  have htN : t.val < 10 := Nat.lt_of_lt_of_eq (show t.val < grid0.N from t.isLt) N_0
  funext j
  obtain ⟨p, q, rfl⟩ : ∃ (p : Fin 2000) (q : Fin 128), j = ix2 p q := ⟨j 0, j 1, eq_ix2 j⟩
  have hp : p.val < 2000 := p.isLt
  have hn : t.val * 2000 + p.val < 20000 := by omega
  have hemb : ((cfg0.win 6).blk t).view.emb (ix2 p q) = ix2 (⟨t.val * 2000 + p.val, hn⟩ : Fin 20000) q := by
    funext a; apply Fin.ext
    match a with
    | ⟨0, _⟩ => show win0_6.index t (0 : Fin 2) * 2000 + 1 * p.val = t.val * 2000 + p.val; rw [e60]; omega
    | ⟨1, _⟩ => show win0_6.index t (1 : Fin 2) * 128 + 1 * q.val = q.val; rw [e61]; omega
  show Sage.reluAffine (iblk0 V c 0 t) (iblk0 V c 1 t) (iblk0 V c 2 t) (iblk0 V c 3 t) (iblk0 V c 4 t) (iblk0 V c 5 t) (ix2 p q)
      = (Sage.reluAffine (V c main_v13) (V c main_v21) (V c main_arg1) (V c main_v18) (V c main_v20) (V c main_v19)) (((cfg0.win 6).blk t).view.emb (ix2 p q))
  rw [hemb]
  refine Sage.reluAffine_block_eq _ _ _ _ _ _ _ _ _ _ _ _ p ⟨t.val * 2000 + p.val, hn⟩ q (fun k => ?_) ?_ (fun k => ?_) ?_ ?_ ?_
  · show V c main_v13 (((cfg0.win 0).blk t).view.emb (ix2 p k)) = V c main_v13 (ix2 (⟨t.val * 2000 + p.val, hn⟩ : Fin 20000) k)
    refine congrArg _ (funext fun a => Fin.ext ?_)
    match a with
    | ⟨0, _⟩ => show win0_0.index t (0 : Fin 2) * 2000 + 1 * p.val = t.val * 2000 + p.val; rw [e00]; omega
    | ⟨1, _⟩ => show win0_0.index t (1 : Fin 2) * 128 + 1 * (k : Fin 128).val = (k : Fin 128).val; rw [e01]; omega
  · show V c main_v21 (((cfg0.win 1).blk t).view.emb (ix2 p 0)) = V c main_v21 (ix2 (⟨t.val * 2000 + p.val, hn⟩ : Fin 20000) 0)
    refine congrArg _ (funext fun a => Fin.ext ?_)
    match a with
    | ⟨0, _⟩ => show win0_1.index t (0 : Fin 2) * 2000 + 1 * p.val = t.val * 2000 + p.val; rw [e10]; omega
    | ⟨1, _⟩ => show win0_1.index t (1 : Fin 2) * 1 + 1 * (0 : Fin 1).val = (0 : Fin 1).val; rw [e11]; omega
  · show V c main_arg1 (((cfg0.win 2).blk t).view.emb (ix2 p k)) = V c main_arg1 (ix2 (⟨t.val * 2000 + p.val, hn⟩ : Fin 20000) k)
    refine congrArg _ (funext fun a => Fin.ext ?_)
    match a with
    | ⟨0, _⟩ => show win0_2.index t (0 : Fin 2) * 2000 + 1 * p.val = t.val * 2000 + p.val; rw [e20]; omega
    | ⟨1, _⟩ => show win0_2.index t (1 : Fin 2) * 64 + 1 * (k : Fin 64).val = (k : Fin 64).val; rw [e21]; omega
  · funext y
    show V c main_v18 (((cfg0.win 3).blk t).view.emb y) = V c main_v18 y
    refine congrArg _ (funext fun a => Fin.ext ?_)
    match a with
    | ⟨0, _⟩ => show win0_3.index t (0 : Fin 2) * 128 + 1 * (y 0).val = (y 0).val; rw [e30]; omega
    | ⟨1, _⟩ => show win0_3.index t (1 : Fin 2) * 128 + 1 * (y 1).val = (y 1).val; rw [e31]; omega
  · funext y
    show V c main_v20 (((cfg0.win 4).blk t).view.emb y) = V c main_v20 y
    refine congrArg _ (funext fun a => Fin.ext ?_)
    match a with
    | ⟨0, _⟩ => show win0_4.index t (0 : Fin 2) * 1 + 1 * (y 0).val = (y 0).val; rw [e40]; omega
    | ⟨1, _⟩ => show win0_4.index t (1 : Fin 2) * 128 + 1 * (y 1).val = (y 1).val; rw [e41]; omega
  · funext y
    show V c main_v19 (((cfg0.win 5).blk t).view.emb y) = V c main_v19 y
    refine congrArg _ (funext fun a => Fin.ext ?_)
    match a with
    | ⟨0, _⟩ => show win0_5.index t (0 : Fin 2) * 64 + 1 * (y 0).val = (y 0).val; rw [e50]; omega
    | ⟨1, _⟩ => show win0_5.index t (1 : Fin 2) * 128 + 1 * (y 1).val = (y 1).val; rw [e51]; omega

/-- An index of the array is in point `t`'s block iff each coordinate is in the block's range on its axis. -/
theorem mem_blk (t : Fin cfg0.N) (i : S20000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v22).slice (win0_6.rect t)).set ↔ _
  rw [View.set_slice_whole, Rect.mem_set_unit]
  exact Iff.rfl

/-- The output's blocks tile the array: row `r` is in the block of point `r / 2000`. -/
theorem cover (i : S20000x128.Idx) : ∃ t : Fin cfg0.N, (cfg0.win 6).flush t = true ∧ i ∈ ((cfg0.win 6).blk t).view.set := by
  have hi0 : (i 0).val < 20000 := (i 0).isLt
  have hi1 : (i 1).val < 128 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- THE ARRAY after the region: the layer of the arrays the region found. -/
theorem value (c : Dev nD) : (dat0 V c).arrAt 6 cfg0.N = (Sage.reluAffine (V c main_v13) (V c main_v21) (V c main_arg1) (V c main_v18) (V c main_v20) (V c main_v19)) :=
  (dat0 V c).arrAt_eq_of_cover 6 _ (fun t _ => flushed_eq V c t) (cover)

end Cert.KernelIdeal.RegionValue0

end
-- ==== Proof.KRegion1.lean ====
/-
  What region 1 leaves in its output array, as ONE function of the arrays it finds at its entry: the body computes, for
  each block of 5000 node rows, the mean-aggregating layer (LibSageLayer) of that block's summed rows, count column and own
  rows with the whole weight matrices and bias row; row r of block t is node t * 5000 + r, the 20 blocks tile the 100000 rows, so
  the array ends holding the layer of the whole arrays, clamped below at zero.  Stated at any entry contents `V`.
-/
import proofs.«100673_j49950469652729_1_alg».proof.Proof.Gen.KernelIdeal.Frame
import proofs.«100673_j49950469652729_1_alg».proof.Proof.LibSageLayer
import Idealize.ShloMosaic.Lib.Pipeline.Value
import Idealize.ShloMosaic.Lib.ValueIdx

set_option maxRecDepth 16384

noncomputable section

namespace Cert.KernelIdeal.RegionValue1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block is the layer of the block's operands. -/
theorem pay_eq (x0 : Vec Ideal S5000x64 .f32) (x1 : Vec Ideal S5000x1 .f32) (x2 : Vec Ideal S5000x128 .f32)
    (x3 : Vec Ideal S64x128 .f32) (x4 : Vec Ideal S1x128 .f32) (x5 : Vec Ideal S128x128 .f32) :
    k1_pay1 (F := Ideal) x1 x0 x3 x4 x2 x5 = Sage.reluAffine x0 x1 x2 x3 x4 x5 := by
  unfold k1_pay1
  simp only [shapeCast_self]
  exact congrArg (fun X => maximumf X (broadcast S5000x128 (Scalar.ofBits (F := Ideal) .f32 0x00000000#32)))
    (Sage.kernel_affine dot_S5000x64_S64x128_S5000x128_1_0_0_1_n_n rfl dot_S5000x128_S128x128_S5000x128_1_0_0_1_n_n rfl _ _ x0 x1 x2 x3 x4 x5)

/-- The printed index maps, decided over the grid: the row-blocked windows are at block `t`, the others at block 0. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- Every block row of the output is some point's. -/
theorem idx_onto : ∀ (q0 : Fin 20), ∃ t : Fin cfg1.N, win1_6.index t = ![q0.val, 0] :=
  (by decide +kernel : ∀ (q0 : Fin 20), ∃ t : Fin grid1.N, win1_6.index t = ![q0.val, 0])

/-- WHAT POINT `t` WRITES BACK is block `t` of the layer of the arrays as the region finds them. -/
theorem flushed_eq (c : Dev nD) (t : Fin cfg1.N) :
    (dat1 V c).flushed 6 t = ((cfg1.win 6).blk t).view.read (Elt Ideal) (Sage.reluAffine (V c main_v36) (V c main_v44) (V c main_arg0) (V c main_v41) (V c main_v43) (V c main_v42)) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S5000x128) hz, View.ld_unit_zero (S := S64x128) hz, View.ld_unit_zero (S := S1x128) hz, View.ld_unit_zero (S := S128x128) hz]
  rw [pay_eq]
  obtain ⟨e00, e01, e10, e11, e20, e21, e30, e31, e40, e41, e50, e51, e60, e61⟩ := idx_facts t
  have htN : t.val < 20 := Nat.lt_of_lt_of_eq (show t.val < grid1.N from t.isLt) N_1
  funext j
  obtain ⟨p, q, rfl⟩ : ∃ (p : Fin 5000) (q : Fin 128), j = ix2 p q := ⟨j 0, j 1, eq_ix2 j⟩
  have hp : p.val < 5000 := p.isLt
  have hn : t.val * 5000 + p.val < 100000 := by omega
  have hemb : ((cfg1.win 6).blk t).view.emb (ix2 p q) = ix2 (⟨t.val * 5000 + p.val, hn⟩ : Fin 100000) q := by
    funext a; apply Fin.ext
    match a with
    | ⟨0, _⟩ => show win1_6.index t (0 : Fin 2) * 5000 + 1 * p.val = t.val * 5000 + p.val; rw [e60]; omega
    | ⟨1, _⟩ => show win1_6.index t (1 : Fin 2) * 128 + 1 * q.val = q.val; rw [e61]; omega
  show Sage.reluAffine (iblk1 V c 0 t) (iblk1 V c 1 t) (iblk1 V c 2 t) (iblk1 V c 3 t) (iblk1 V c 4 t) (iblk1 V c 5 t) (ix2 p q)
      = (Sage.reluAffine (V c main_v36) (V c main_v44) (V c main_arg0) (V c main_v41) (V c main_v43) (V c main_v42)) (((cfg1.win 6).blk t).view.emb (ix2 p q))
  rw [hemb]
  refine Sage.reluAffine_block_eq _ _ _ _ _ _ _ _ _ _ _ _ p ⟨t.val * 5000 + p.val, hn⟩ q (fun k => ?_) ?_ (fun k => ?_) ?_ ?_ ?_
  · show V c main_v36 (((cfg1.win 0).blk t).view.emb (ix2 p k)) = V c main_v36 (ix2 (⟨t.val * 5000 + p.val, hn⟩ : Fin 100000) k)
    refine congrArg _ (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 64 + 1 * (k : Fin 64).val = (k : Fin 64).val; rw [e01]; omega
  · show V c main_v44 (((cfg1.win 1).blk t).view.emb (ix2 p 0)) = V c main_v44 (ix2 (⟨t.val * 5000 + p.val, hn⟩ : Fin 100000) 0)
    refine congrArg _ (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 1 + 1 * (0 : Fin 1).val = (0 : Fin 1).val; rw [e11]; omega
  · show V c main_arg0 (((cfg1.win 2).blk t).view.emb (ix2 p k)) = V c main_arg0 (ix2 (⟨t.val * 5000 + p.val, hn⟩ : Fin 100000) k)
    refine congrArg _ (funext fun a => Fin.ext ?_)
    match a with
    | ⟨0, _⟩ => show win1_2.index t (0 : Fin 2) * 5000 + 1 * p.val = t.val * 5000 + p.val; rw [e20]; omega
    | ⟨1, _⟩ => show win1_2.index t (1 : Fin 2) * 128 + 1 * (k : Fin 128).val = (k : Fin 128).val; rw [e21]; omega
  · funext y
    show V c main_v41 (((cfg1.win 3).blk t).view.emb y) = V c main_v41 y
    refine congrArg _ (funext fun a => Fin.ext ?_)
    match a with
    | ⟨0, _⟩ => show win1_3.index t (0 : Fin 2) * 64 + 1 * (y 0).val = (y 0).val; rw [e30]; omega
    | ⟨1, _⟩ => show win1_3.index t (1 : Fin 2) * 128 + 1 * (y 1).val = (y 1).val; rw [e31]; omega
  · funext y
    show V c main_v43 (((cfg1.win 4).blk t).view.emb y) = V c main_v43 y
    refine congrArg _ (funext fun a => Fin.ext ?_)
    match a with
    | ⟨0, _⟩ => show win1_4.index t (0 : Fin 2) * 1 + 1 * (y 0).val = (y 0).val; rw [e40]; omega
    | ⟨1, _⟩ => show win1_4.index t (1 : Fin 2) * 128 + 1 * (y 1).val = (y 1).val; rw [e41]; omega
  · funext y
    show V c main_v42 (((cfg1.win 5).blk t).view.emb y) = V c main_v42 y
    refine congrArg _ (funext fun a => Fin.ext ?_)
    match a with
    | ⟨0, _⟩ => show win1_5.index t (0 : Fin 2) * 128 + 1 * (y 0).val = (y 0).val; rw [e50]; omega
    | ⟨1, _⟩ => show win1_5.index t (1 : Fin 2) * 128 + 1 * (y 1).val = (y 1).val; rw [e51]; omega

/-- An index of the array is in point `t`'s block iff each coordinate is in the block's range on its axis. -/
theorem mem_blk (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v45).slice (win1_6.rect t)).set ↔ _
  rw [View.set_slice_whole, Rect.mem_set_unit]
  exact Iff.rfl

/-- The output's blocks tile the array: row `r` is in the block of point `r / 5000`. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE ARRAY after the region: the layer of the arrays the region found. -/
theorem value (c : Dev nD) : (dat1 V c).arrAt 6 cfg1.N = (Sage.reluAffine (V c main_v36) (V c main_v44) (V c main_arg0) (V c main_v41) (V c main_v43) (V c main_v42)) :=
  (dat1 V c).arrAt_eq_of_cover 6 _ (fun t _ => flushed_eq V c t) (cover)

end Cert.KernelIdeal.RegionValue1

end
-- ==== Proof.KRegion2.lean ====
/-
  What region 2 leaves in its output array, as ONE function of the arrays it finds at its entry: the body computes, for
  each block of 2000 node rows, the mean-aggregating layer (LibSageLayer) of that block's summed rows, count column and own
  rows with the whole weight matrices and bias row; row r of block t is node t * 2000 + r, the 10 blocks tile the 20000 rows, so
  the array ends holding the layer of the whole arrays.  Stated at any entry contents `V`.
-/
import proofs.«100673_j49950469652729_1_alg».proof.Proof.Gen.KernelIdeal.Frame
import proofs.«100673_j49950469652729_1_alg».proof.Proof.LibSageLayer
import Idealize.ShloMosaic.Lib.Pipeline.Value
import Idealize.ShloMosaic.Lib.ValueIdx

set_option maxRecDepth 16384

noncomputable section

namespace Cert.KernelIdeal.RegionValue2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block is the layer of the block's operands. -/
theorem pay_eq (x0 : Vec Ideal S2000x128 .f32) (x1 : Vec Ideal S2000x1 .f32) (x2 : Vec Ideal S2000x128 .f32)
    (x3 : Vec Ideal S128x64 .f32) (x4 : Vec Ideal S1x64 .f32) (x5 : Vec Ideal S128x64 .f32) :
    k2_pay1 (F := Ideal) x1 x0 x3 x4 x2 x5 = Sage.affine x0 x1 x2 x3 x4 x5 := by
  unfold k2_pay1
  simp only [shapeCast_self]
  exact (Sage.kernel_affine dot_S2000x128_S128x64_S2000x64_1_0_0_1_n_n rfl dot_S2000x128_S128x64_S2000x64_1_0_0_1_n_n rfl _ _ x0 x1 x2 x3 x4 x5)

/-- The printed index maps, decided over the grid: the row-blocked windows are at block `t`, the others at block 0. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

/-- Every block row of the output is some point's. -/
theorem idx_onto : ∀ (q0 : Fin 10), ∃ t : Fin cfg2.N, win2_6.index t = ![q0.val, 0] :=
  (by decide +kernel : ∀ (q0 : Fin 10), ∃ t : Fin grid2.N, win2_6.index t = ![q0.val, 0])

set_option maxHeartbeats 4000000 in
/-- WHAT POINT `t` WRITES BACK is block `t` of the layer of the arrays as the region finds them. -/
theorem flushed_eq (c : Dev nD) (t : Fin cfg2.N) :
    (dat2 V c).flushed 6 t = ((cfg2.win 6).blk t).view.read (Elt Ideal) (Sage.affine (V c main_v59) (V c main_v67) (V c main_v22) (V c main_v64) (V c main_v66) (V c main_v65)) := by
  show (cfg2.win 6).cut (grid2.coords t) ((dat2 V c).after 6 t) = _
  rw [after2_6]
  unfold out2_6
  rw [View.canon_unit_zero hz]
  simp only [View.ld_unit_zero (S := S2000x128) hz, View.ld_unit_zero (S := S2000x1) hz, View.ld_unit_zero (S := S128x64) hz, View.ld_unit_zero (S := S1x64) hz]
  rw [pay_eq]
  obtain ⟨e00, e01, e10, e11, e20, e21, e30, e31, e40, e41, e50, e51, e60, e61⟩ := idx_facts t
  have htN : t.val < 10 := Nat.lt_of_lt_of_eq (show t.val < grid2.N from t.isLt) N_2
  funext j
  obtain ⟨p, q, rfl⟩ : ∃ (p : Fin 2000) (q : Fin 64), j = ix2 p q := ⟨j 0, j 1, eq_ix2 j⟩
  have hp : p.val < 2000 := p.isLt
  have hn : t.val * 2000 + p.val < 20000 := by omega
  have hemb : ((cfg2.win 6).blk t).view.emb (ix2 p q) = ix2 (⟨t.val * 2000 + p.val, hn⟩ : Fin 20000) q := by
    funext a; apply Fin.ext
    match a with
    | ⟨0, _⟩ => show win2_6.index t (0 : Fin 2) * 2000 + 1 * p.val = t.val * 2000 + p.val; rw [e60]; omega
    | ⟨1, _⟩ => show win2_6.index t (1 : Fin 2) * 64 + 1 * q.val = q.val; rw [e61]; omega
  show Sage.affine (iblk2 V c 0 t) (iblk2 V c 1 t) (iblk2 V c 2 t) (iblk2 V c 3 t) (iblk2 V c 4 t) (iblk2 V c 5 t) (ix2 p q)
      = (Sage.affine (V c main_v59) (V c main_v67) (V c main_v22) (V c main_v64) (V c main_v66) (V c main_v65)) (((cfg2.win 6).blk t).view.emb (ix2 p q))
  rw [hemb]
  refine Sage.affine_block_eq _ _ _ _ _ _ _ _ _ _ _ _ p ⟨t.val * 2000 + p.val, hn⟩ q (fun k => ?_) ?_ (fun k => ?_) ?_ ?_ ?_
  · show V c main_v59 (((cfg2.win 0).blk t).view.emb (ix2 p k)) = V c main_v59 (ix2 (⟨t.val * 2000 + p.val, hn⟩ : Fin 20000) k)
    refine congrArg _ (funext fun a => Fin.ext ?_)
    match a with
    | ⟨0, _⟩ => show win2_0.index t (0 : Fin 2) * 2000 + 1 * p.val = t.val * 2000 + p.val; rw [e00]; omega
    | ⟨1, _⟩ => show win2_0.index t (1 : Fin 2) * 128 + 1 * (k : Fin 128).val = (k : Fin 128).val; rw [e01]; omega
  · show V c main_v67 (((cfg2.win 1).blk t).view.emb (ix2 p 0)) = V c main_v67 (ix2 (⟨t.val * 2000 + p.val, hn⟩ : Fin 20000) 0)
    refine congrArg _ (funext fun a => Fin.ext ?_)
    match a with
    | ⟨0, _⟩ => show win2_1.index t (0 : Fin 2) * 2000 + 1 * p.val = t.val * 2000 + p.val; rw [e10]; omega
    | ⟨1, _⟩ => show win2_1.index t (1 : Fin 2) * 1 + 1 * (0 : Fin 1).val = (0 : Fin 1).val; rw [e11]; omega
  · show V c main_v22 (((cfg2.win 2).blk t).view.emb (ix2 p k)) = V c main_v22 (ix2 (⟨t.val * 2000 + p.val, hn⟩ : Fin 20000) k)
    refine congrArg _ (funext fun a => Fin.ext ?_)
    match a with
    | ⟨0, _⟩ => show win2_2.index t (0 : Fin 2) * 2000 + 1 * p.val = t.val * 2000 + p.val; rw [e20]; omega
    | ⟨1, _⟩ => show win2_2.index t (1 : Fin 2) * 128 + 1 * (k : Fin 128).val = (k : Fin 128).val; rw [e21]; omega
  · funext y
    show V c main_v64 (((cfg2.win 3).blk t).view.emb y) = V c main_v64 y
    refine congrArg _ (funext fun a => Fin.ext ?_)
    match a with
    | ⟨0, _⟩ => show win2_3.index t (0 : Fin 2) * 128 + 1 * (y 0).val = (y 0).val; rw [e30]; omega
    | ⟨1, _⟩ => show win2_3.index t (1 : Fin 2) * 64 + 1 * (y 1).val = (y 1).val; rw [e31]; omega
  · funext y
    show V c main_v66 (((cfg2.win 4).blk t).view.emb y) = V c main_v66 y
    refine congrArg _ (funext fun a => Fin.ext ?_)
    match a with
    | ⟨0, _⟩ => show win2_4.index t (0 : Fin 2) * 1 + 1 * (y 0).val = (y 0).val; rw [e40]; omega
    | ⟨1, _⟩ => show win2_4.index t (1 : Fin 2) * 64 + 1 * (y 1).val = (y 1).val; rw [e41]; omega
  · funext y
    show V c main_v65 (((cfg2.win 5).blk t).view.emb y) = V c main_v65 y
    refine congrArg _ (funext fun a => Fin.ext ?_)
    match a with
    | ⟨0, _⟩ => show win2_5.index t (0 : Fin 2) * 128 + 1 * (y 0).val = (y 0).val; rw [e50]; omega
    | ⟨1, _⟩ => show win2_5.index t (1 : Fin 2) * 64 + 1 * (y 1).val = (y 1).val; rw [e51]; omega

/-- An index of the array is in point `t`'s block iff each coordinate is in the block's range on its axis. -/
theorem mem_blk (t : Fin cfg2.N) (i : S20000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v68).slice (win2_6.rect t)).set ↔ _
  rw [View.set_slice_whole, Rect.mem_set_unit]
  exact Iff.rfl

/-- The output's blocks tile the array: row `r` is in the block of point `r / 2000`. -/
theorem cover (i : S20000x64.Idx) : ∃ t : Fin cfg2.N, (cfg2.win 6).flush t = true ∧ i ∈ ((cfg2.win 6).blk t).view.set := by
  have hi0 : (i 0).val < 20000 := (i 0).isLt
  have hi1 : (i 1).val < 64 := (i 1).isLt
  obtain ⟨t, ht⟩ := idx_onto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 64 ≤ (i 1).val ∧ (i 1).val < win2_6.index t (1 : Fin 2) * 64 + 64; omega

/-- THE ARRAY after the region: the layer of the arrays the region found. -/
theorem value (c : Dev nD) : (dat2 V c).arrAt 6 cfg2.N = (Sage.affine (V c main_v59) (V c main_v67) (V c main_v22) (V c main_v64) (V c main_v66) (V c main_v65)) :=
  (dat2 V c).arrAt_eq_of_cover 6 _ (fun t _ => flushed_eq V c t) (cover)

end Cert.KernelIdeal.RegionValue2

end
-- ==== Proof.KRegion3.lean ====
/-
  What region 3 leaves in its output array, as ONE function of the arrays it finds at its entry: the body computes, for
  each block of 5000 node rows, the mean-aggregating layer (LibSageLayer) of that block's summed rows, count column and own
  rows with the whole weight matrices and bias row; row r of block t is node t * 5000 + r, the 20 blocks tile the 100000 rows, so
  the array ends holding the layer of the whole arrays.  Stated at any entry contents `V`.
-/
import proofs.«100673_j49950469652729_1_alg».proof.Proof.Gen.KernelIdeal.Frame
import proofs.«100673_j49950469652729_1_alg».proof.Proof.LibSageLayer
import Idealize.ShloMosaic.Lib.Pipeline.Value
import Idealize.ShloMosaic.Lib.ValueIdx

set_option maxRecDepth 16384

noncomputable section

namespace Cert.KernelIdeal.RegionValue3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block is the layer of the block's operands. -/
theorem pay_eq (x0 : Vec Ideal S5000x128 .f32) (x1 : Vec Ideal S5000x1 .f32) (x2 : Vec Ideal S5000x128 .f32)
    (x3 : Vec Ideal S128x64 .f32) (x4 : Vec Ideal S1x64 .f32) (x5 : Vec Ideal S128x64 .f32) :
    k3_pay1 (F := Ideal) x1 x0 x3 x4 x2 x5 = Sage.affine x0 x1 x2 x3 x4 x5 := by
  unfold k3_pay1
  simp only [shapeCast_self]
  exact (Sage.kernel_affine dot_S5000x128_S128x64_S5000x64_1_0_0_1_n_n rfl dot_S5000x128_S128x64_S5000x64_1_0_0_1_n_n rfl _ _ x0 x1 x2 x3 x4 x5)

/-- The printed index maps, decided over the grid: the row-blocked windows are at block `t`, the others at block 0. -/
theorem idx_facts : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0 :=
  (by decide +kernel : ∀ t : Fin grid3.N, _)

/-- Every block row of the output is some point's. -/
theorem idx_onto : ∀ (q0 : Fin 20), ∃ t : Fin cfg3.N, win3_6.index t = ![q0.val, 0] :=
  (by decide +kernel : ∀ (q0 : Fin 20), ∃ t : Fin grid3.N, win3_6.index t = ![q0.val, 0])

set_option maxHeartbeats 4000000 in
/-- WHAT POINT `t` WRITES BACK is block `t` of the layer of the arrays as the region finds them. -/
theorem flushed_eq (c : Dev nD) (t : Fin cfg3.N) :
    (dat3 V c).flushed 6 t = ((cfg3.win 6).blk t).view.read (Elt Ideal) (Sage.affine (V c main_v82) (V c main_v90) (V c main_v45) (V c main_v87) (V c main_v89) (V c main_v88)) := by
  show (cfg3.win 6).cut (grid3.coords t) ((dat3 V c).after 6 t) = _
  rw [after3_6]
  unfold out3_6
  rw [View.canon_unit_zero hz]
  simp only [View.ld_unit_zero (S := S5000x128) hz, View.ld_unit_zero (S := S5000x1) hz, View.ld_unit_zero (S := S128x64) hz, View.ld_unit_zero (S := S1x64) hz]
  rw [pay_eq]
  obtain ⟨e00, e01, e10, e11, e20, e21, e30, e31, e40, e41, e50, e51, e60, e61⟩ := idx_facts t
  have htN : t.val < 20 := Nat.lt_of_lt_of_eq (show t.val < grid3.N from t.isLt) N_3
  funext j
  obtain ⟨p, q, rfl⟩ : ∃ (p : Fin 5000) (q : Fin 64), j = ix2 p q := ⟨j 0, j 1, eq_ix2 j⟩
  have hp : p.val < 5000 := p.isLt
  have hn : t.val * 5000 + p.val < 100000 := by omega
  have hemb : ((cfg3.win 6).blk t).view.emb (ix2 p q) = ix2 (⟨t.val * 5000 + p.val, hn⟩ : Fin 100000) q := by
    funext a; apply Fin.ext
    match a with
    | ⟨0, _⟩ => show win3_6.index t (0 : Fin 2) * 5000 + 1 * p.val = t.val * 5000 + p.val; rw [e60]; omega
    | ⟨1, _⟩ => show win3_6.index t (1 : Fin 2) * 64 + 1 * q.val = q.val; rw [e61]; omega
  show Sage.affine (iblk3 V c 0 t) (iblk3 V c 1 t) (iblk3 V c 2 t) (iblk3 V c 3 t) (iblk3 V c 4 t) (iblk3 V c 5 t) (ix2 p q)
      = (Sage.affine (V c main_v82) (V c main_v90) (V c main_v45) (V c main_v87) (V c main_v89) (V c main_v88)) (((cfg3.win 6).blk t).view.emb (ix2 p q))
  rw [hemb]
  refine Sage.affine_block_eq _ _ _ _ _ _ _ _ _ _ _ _ p ⟨t.val * 5000 + p.val, hn⟩ q (fun k => ?_) ?_ (fun k => ?_) ?_ ?_ ?_
  · show V c main_v82 (((cfg3.win 0).blk t).view.emb (ix2 p k)) = V c main_v82 (ix2 (⟨t.val * 5000 + p.val, hn⟩ : Fin 100000) k)
    refine congrArg _ (funext fun a => Fin.ext ?_)
    match a with
    | ⟨0, _⟩ => show win3_0.index t (0 : Fin 2) * 5000 + 1 * p.val = t.val * 5000 + p.val; rw [e00]; omega
    | ⟨1, _⟩ => show win3_0.index t (1 : Fin 2) * 128 + 1 * (k : Fin 128).val = (k : Fin 128).val; rw [e01]; omega
  · show V c main_v90 (((cfg3.win 1).blk t).view.emb (ix2 p 0)) = V c main_v90 (ix2 (⟨t.val * 5000 + p.val, hn⟩ : Fin 100000) 0)
    refine congrArg _ (funext fun a => Fin.ext ?_)
    match a with
    | ⟨0, _⟩ => show win3_1.index t (0 : Fin 2) * 5000 + 1 * p.val = t.val * 5000 + p.val; rw [e10]; omega
    | ⟨1, _⟩ => show win3_1.index t (1 : Fin 2) * 1 + 1 * (0 : Fin 1).val = (0 : Fin 1).val; rw [e11]; omega
  · show V c main_v45 (((cfg3.win 2).blk t).view.emb (ix2 p k)) = V c main_v45 (ix2 (⟨t.val * 5000 + p.val, hn⟩ : Fin 100000) k)
    refine congrArg _ (funext fun a => Fin.ext ?_)
    match a with
    | ⟨0, _⟩ => show win3_2.index t (0 : Fin 2) * 5000 + 1 * p.val = t.val * 5000 + p.val; rw [e20]; omega
    | ⟨1, _⟩ => show win3_2.index t (1 : Fin 2) * 128 + 1 * (k : Fin 128).val = (k : Fin 128).val; rw [e21]; omega
  · funext y
    show V c main_v87 (((cfg3.win 3).blk t).view.emb y) = V c main_v87 y
    refine congrArg _ (funext fun a => Fin.ext ?_)
    match a with
    | ⟨0, _⟩ => show win3_3.index t (0 : Fin 2) * 128 + 1 * (y 0).val = (y 0).val; rw [e30]; omega
    | ⟨1, _⟩ => show win3_3.index t (1 : Fin 2) * 64 + 1 * (y 1).val = (y 1).val; rw [e31]; omega
  · funext y
    show V c main_v89 (((cfg3.win 4).blk t).view.emb y) = V c main_v89 y
    refine congrArg _ (funext fun a => Fin.ext ?_)
    match a with
    | ⟨0, _⟩ => show win3_4.index t (0 : Fin 2) * 1 + 1 * (y 0).val = (y 0).val; rw [e40]; omega
    | ⟨1, _⟩ => show win3_4.index t (1 : Fin 2) * 64 + 1 * (y 1).val = (y 1).val; rw [e41]; omega
  · funext y
    show V c main_v88 (((cfg3.win 5).blk t).view.emb y) = V c main_v88 y
    refine congrArg _ (funext fun a => Fin.ext ?_)
    match a with
    | ⟨0, _⟩ => show win3_5.index t (0 : Fin 2) * 128 + 1 * (y 0).val = (y 0).val; rw [e50]; omega
    | ⟨1, _⟩ => show win3_5.index t (1 : Fin 2) * 64 + 1 * (y 1).val = (y 1).val; rw [e51]; omega

/-- An index of the array is in point `t`'s block iff each coordinate is in the block's range on its axis. -/
theorem mem_blk (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v91).slice (win3_6.rect t)).set ↔ _
  rw [View.set_slice_whole, Rect.mem_set_unit]
  exact Iff.rfl

/-- The output's blocks tile the array: row `r` is in the block of point `r / 5000`. -/
theorem cover (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  obtain ⟨t, ht⟩ := idx_onto ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- THE ARRAY after the region: the layer of the arrays the region found. -/
theorem value (c : Dev nD) : (dat3 V c).arrAt 6 cfg3.N = (Sage.affine (V c main_v82) (V c main_v90) (V c main_v45) (V c main_v87) (V c main_v89) (V c main_v88)) :=
  (dat3 V c).arrAt_eq_of_cover 6 _ (fun t _ => flushed_eq V c t) (cover)

end Cert.KernelIdeal.RegionValue3

end
-- ==== Proof.Spec.lean ====
/-
  The two results as ONE function of the sixteen argument arrays.

  Each of the four layers aggregates the source nodes' rows along the edges — a gather of the source rows at the edges' source
  ends, summed into the rows of their destination ends, and the number of edges per destination node counted the same way —
  and then applies the mean-aggregating layer `Cert.Sage.affine` (LibSageLayer) to the summed rows, the counts, the
  destination nodes' own rows, the two transposed weight matrices and the bias.  The first two layers are clamped below at
  zero; the last two read the first two's results.  The aggregation is carried as named whole-array functions and is never
  opened: both programs apply it verbatim.
-/
import proofs.«100673_j49950469652729_1_alg».proof.Proof.Gen.KernelIdeal
import proofs.«100673_j49950469652729_1_alg».proof.Proof.LibSageLayer

noncomputable section

namespace Cert.Spec

open Idealize.ShloMosaic Cert.KernelIdeal Cert.KernelIdeal.Facts₀

/-- Float and integer arrays of a shape, at the exact instance. -/
abbrev F32 (s : Shape) : Type := FVec Ideal s .f32
abbrev I32 (s : Shape) : Type := IVec s 32

/-! ## The edge list's two rows and the index columns made of them -/

/-- The edges' source ends. -/
def row0 (ei : I32 S2x1000000) : I32 S1000000 :=
  shapeCast S1000000 (extractStridedSlice S1x1000000 ![0, 0] ei slices_S2x1000000_S1x1000000_0_0) shapeCasts_S1x1000000_S1000000
/-- The edges' destination ends. -/
def row1 (ei : I32 S2x1000000) : I32 S1000000 :=
  shapeCast S1000000 (extractStridedSlice S1x1000000 ![1, 0] ei slices_S2x1000000_S1x1000000_1_0) shapeCasts_S1x1000000_S1000000

/-- Source ends as a gather's start indices: a negative index counted from the end of an axis of extent `n`. -/
def srcCol (n : BitVec 32) (r : I32 S1000000) : I32 S1000000x1 :=
  broadcastInDim S1000000x1 ![0] bcast_S1000000_S1000000x1_0
    (select (cmpi .slt r (broadcastInDim S1000000 ![] bcast_S_S1000000 (constantI S_ 32 0#32)))
      (addi r (broadcastInDim S1000000 ![] bcast_S_S1000000 (constantI S_ 32 n))) r)
/-- Destination ends as a scatter's index column. -/
def dstCol (r : I32 S1000000) : I32 S1000000x1 := broadcastInDim S1000000x1 ![0] bcast_S1000000_S1000000x1_0 r

/-! ## The aggregations -/

/-- Rows of 100000 source nodes of width 128 summed into 20000 destination nodes. -/
def sumDis (x : F32 S100000x128) (ei : I32 S2x1000000) : F32 S20000x128 :=
  Host.scatterAdd (F := Ideal) scatter_S20000x128_S1000000x1_S1000000x128_1_0_0_1
    (broadcastInDim S20000x128 ![] bcast_S_S20000x128 (constant (F := Ideal) S_ .f32 0x00000000#32)) (dstCol (row1 ei))
    (Host.gather gather_S100000x128_S1000000x1_S1000000x128_1_0_n_n_0_1_1128 x (srcCol 100000#32 (row0 ei)))
/-- Rows of 20000 source nodes of width 64 summed into 100000 destination nodes. -/
def sumDrug64 (x : F32 S20000x64) (ei : I32 S2x1000000) : F32 S100000x64 :=
  Host.scatterAdd (F := Ideal) scatter_S100000x64_S1000000x1_S1000000x64_1_0_0_1
    (broadcastInDim S100000x64 ![] bcast_S_S100000x64 (constant (F := Ideal) S_ .f32 0x00000000#32)) (dstCol (row1 ei))
    (Host.gather gather_S20000x64_S1000000x1_S1000000x64_1_0_n_n_0_1_164 x (srcCol 20000#32 (row0 ei)))
/-- Rows of 20000 source nodes of width 128 summed into 100000 destination nodes. -/
def sumDrug128 (x : F32 S20000x128) (ei : I32 S2x1000000) : F32 S100000x128 :=
  Host.scatterAdd (F := Ideal) scatter_S100000x128_S1000000x1_S1000000x128_1_0_0_1
    (broadcastInDim S100000x128 ![] bcast_S_S100000x128 (constant (F := Ideal) S_ .f32 0x00000000#32)) (dstCol (row1 ei))
    (Host.gather gather_S20000x128_S1000000x1_S1000000x128_1_0_n_n_0_1_1128 x (srcCol 20000#32 (row0 ei)))
/-- The number of edges into each of 20000 destination nodes. -/
def cntDis (ei : I32 S2x1000000) : F32 S20000 :=
  Host.scatterAdd (F := Ideal) scatter_S20000_S1000000x1_S1000000_n_0_0_1
    (broadcastInDim S20000 ![] bcast_S_S20000 (constant (F := Ideal) S_ .f32 0x00000000#32)) (dstCol (row1 ei))
    (broadcastInDim S1000000 ![] bcast_S_S1000000 (constant (F := Ideal) S_ .f32 0x3F800000#32))
/-- The number of edges into each of 100000 destination nodes. -/
def cntDrug (ei : I32 S2x1000000) : F32 S100000 :=
  Host.scatterAdd (F := Ideal) scatter_S100000_S1000000x1_S1000000_n_0_0_1
    (broadcastInDim S100000 ![] bcast_S_S100000 (constant (F := Ideal) S_ .f32 0x00000000#32)) (dstCol (row1 ei))
    (broadcastInDim S1000000 ![] bcast_S_S1000000 (constant (F := Ideal) S_ .f32 0x3F800000#32))

/-! ## The four layers -/

/-- First layer into the 20000 nodes (clamped). -/
def hDis (a0 : F32 S100000x128) (a1 : F32 S20000x64) (a2 : I32 S2x1000000) (a4 : F32 S128x128) (a5 : F32 S128) (a6 : F32 S128x64) :
    F32 S20000x128 :=
  Sage.reluAffine (sumDis a0 a2) (shapeCast S20000x1 (cntDis a2) shapeCasts_S20000_S20000x1) a1
    (transpose S128x128 [1, 0] a4 transposes_S128x128_S128x128_1_0) (shapeCast S1x128 a5 shapeCasts_S128_S1x128)
    (transpose S64x128 [1, 0] a6 transposes_S128x64_S64x128_1_0)
/-- First layer into the 100000 nodes (clamped). -/
def hDrug (a0 : F32 S100000x128) (a1 : F32 S20000x64) (a3 : I32 S2x1000000) (a7 : F32 S128x64) (a8 : F32 S128) (a9 : F32 S128x128) :
    F32 S100000x128 :=
  Sage.reluAffine (sumDrug64 a1 a3) (shapeCast S100000x1 (cntDrug a3) shapeCasts_S100000_S100000x1) a0
    (transpose S64x128 [1, 0] a7 transposes_S128x64_S64x128_1_0) (shapeCast S1x128 a8 shapeCasts_S128_S1x128)
    (transpose S128x128 [1, 0] a9 transposes_S128x128_S128x128_1_0)
/-- Second layer into the 20000 nodes. -/
def oDis (hdrug : F32 S100000x128) (hdis : F32 S20000x128) (a2 : I32 S2x1000000) (a10 : F32 S64x128) (a11 : F32 S64) (a12 : F32 S64x128) :
    F32 S20000x64 :=
  Sage.affine (sumDis hdrug a2) (shapeCast S20000x1 (cntDis a2) shapeCasts_S20000_S20000x1) hdis
    (transpose S128x64 [1, 0] a10 transposes_S64x128_S128x64_1_0) (shapeCast S1x64 a11 shapeCasts_S64_S1x64)
    (transpose S128x64 [1, 0] a12 transposes_S64x128_S128x64_1_0)
/-- Second layer into the 100000 nodes. -/
def oDrug (hdis : F32 S20000x128) (hdrug : F32 S100000x128) (a3 : I32 S2x1000000) (a13 : F32 S64x128) (a14 : F32 S64) (a15 : F32 S64x128) :
    F32 S100000x64 :=
  Sage.affine (sumDrug128 hdis a3) (shapeCast S100000x1 (cntDrug a3) shapeCasts_S100000_S100000x1) hdrug
    (transpose S128x64 [1, 0] a13 transposes_S64x128_S128x64_1_0) (shapeCast S1x64 a14 shapeCasts_S64_S1x64)
    (transpose S128x64 [1, 0] a15 transposes_S64x128_S128x64_1_0)

end Cert.Spec

end
-- ==== Proof.KStretch0.lean ====
/-
  Host stretch 0 of the kernel's program, read at the five arrays the next region takes as windows, from ANY buffer
  contents `U` at the stretch's start: the summed neighbour rows and the neighbour counts are the aggregation functions of the
  specification applied to the contents of the buffers the stretch reads, the weights their transposes, the bias and the counts
  reshaped to a row and a column.
-/
import proofs.«100673_j49950469652729_1_alg».proof.Proof.Gen.KernelIdeal.Launch
import proofs.«100673_j49950469652729_1_alg».proof.Proof.Spec
import Idealize.ShloMosaic.Lib.StableHlo.Run

set_option maxRecDepth 16384

noncomputable section

namespace Cert.KernelIdeal.StretchValue0

open Cert.KernelIdeal Cert.KernelIdeal.Gen
open Idealize.ShloMosaic Idealize.ShloMosaic.TcCoe Idealize.SL.Sem Idealize.ShloMosaic.StableHlo

attribute [local irreducible] Host.scatterAdd Host.gather

variable (U : Valuation τ sig (Elt Ideal))

theorem at_main_v13 :
    StableHlo.after (hostOps0 (F := Ideal)) U (Proc.devRef .tc main_v13)
      = Spec.sumDis (U (Proc.devRef .tc main_arg0)) (U (Proc.devRef .tc main_arg2)) := by
  after_results_simp <;> rfl

theorem at_main_v21 :
    StableHlo.after (hostOps0 (F := Ideal)) U (Proc.devRef .tc main_v21)
      = shapeCast S20000x1 (Spec.cntDis (U (Proc.devRef .tc main_arg2))) Facts₀.shapeCasts_S20000_S20000x1 := by
  after_results_simp <;> rfl

theorem at_main_v18 :
    StableHlo.after (hostOps0 (F := Ideal)) U (Proc.devRef .tc main_v18)
      = transpose S128x128 [1, 0] (U (Proc.devRef .tc main_arg4)) Facts₀.transposes_S128x128_S128x128_1_0 := by
  after_results_simp <;> rfl

theorem at_main_v20 :
    StableHlo.after (hostOps0 (F := Ideal)) U (Proc.devRef .tc main_v20)
      = shapeCast S1x128 (U (Proc.devRef .tc main_arg5)) Facts₀.shapeCasts_S128_S1x128 := by
  after_results_simp <;> rfl

theorem at_main_v19 :
    StableHlo.after (hostOps0 (F := Ideal)) U (Proc.devRef .tc main_v19)
      = transpose S64x128 [1, 0] (U (Proc.devRef .tc main_arg6)) Facts₀.transposes_S128x64_S64x128_1_0 := by
  after_results_simp <;> rfl

end Cert.KernelIdeal.StretchValue0

end
-- ==== Proof.KStretch1.lean ====
/-
  Host stretch 1 of the kernel's program, read at the five arrays the next region takes as windows, from ANY buffer
  contents `U` at the stretch's start: the summed neighbour rows and the neighbour counts are the aggregation functions of the
  specification applied to the contents of the buffers the stretch reads, the weights their transposes, the bias and the counts
  reshaped to a row and a column.
-/
import proofs.«100673_j49950469652729_1_alg».proof.Proof.Gen.KernelIdeal.Launch
import proofs.«100673_j49950469652729_1_alg».proof.Proof.Spec
import Idealize.ShloMosaic.Lib.StableHlo.Run

set_option maxRecDepth 16384

noncomputable section

namespace Cert.KernelIdeal.StretchValue1

open Cert.KernelIdeal Cert.KernelIdeal.Gen
open Idealize.ShloMosaic Idealize.ShloMosaic.TcCoe Idealize.SL.Sem Idealize.ShloMosaic.StableHlo

attribute [local irreducible] Host.scatterAdd Host.gather

variable (U : Valuation τ sig (Elt Ideal))

theorem at_main_v36 :
    StableHlo.after (hostOps1 (F := Ideal)) U (Proc.devRef .tc main_v36)
      = Spec.sumDrug64 (U (Proc.devRef .tc main_arg1)) (U (Proc.devRef .tc main_arg3)) := by
  after_results_simp <;> rfl

theorem at_main_v44 :
    StableHlo.after (hostOps1 (F := Ideal)) U (Proc.devRef .tc main_v44)
      = shapeCast S100000x1 (Spec.cntDrug (U (Proc.devRef .tc main_arg3))) Facts₀.shapeCasts_S100000_S100000x1 := by
  after_results_simp <;> rfl

theorem at_main_v41 :
    StableHlo.after (hostOps1 (F := Ideal)) U (Proc.devRef .tc main_v41)
      = transpose S64x128 [1, 0] (U (Proc.devRef .tc main_arg7)) Facts₀.transposes_S128x64_S64x128_1_0 := by
  after_results_simp <;> rfl

theorem at_main_v43 :
    StableHlo.after (hostOps1 (F := Ideal)) U (Proc.devRef .tc main_v43)
      = shapeCast S1x128 (U (Proc.devRef .tc main_arg8)) Facts₀.shapeCasts_S128_S1x128 := by
  after_results_simp <;> rfl

theorem at_main_v42 :
    StableHlo.after (hostOps1 (F := Ideal)) U (Proc.devRef .tc main_v42)
      = transpose S128x128 [1, 0] (U (Proc.devRef .tc main_arg9)) Facts₀.transposes_S128x128_S128x128_1_0 := by
  after_results_simp <;> rfl

end Cert.KernelIdeal.StretchValue1

end
-- ==== Proof.KStretch2.lean ====
/-
  Host stretch 2 of the kernel's program, read at the five arrays the next region takes as windows, from ANY buffer
  contents `U` at the stretch's start: the summed neighbour rows and the neighbour counts are the aggregation functions of the
  specification applied to the contents of the buffers the stretch reads, the weights their transposes, the bias and the counts
  reshaped to a row and a column.
-/
import proofs.«100673_j49950469652729_1_alg».proof.Proof.Gen.KernelIdeal.Launch
import proofs.«100673_j49950469652729_1_alg».proof.Proof.Spec
import Idealize.ShloMosaic.Lib.StableHlo.Run

set_option maxRecDepth 16384

noncomputable section

namespace Cert.KernelIdeal.StretchValue2

open Cert.KernelIdeal Cert.KernelIdeal.Gen
open Idealize.ShloMosaic Idealize.ShloMosaic.TcCoe Idealize.SL.Sem Idealize.ShloMosaic.StableHlo

attribute [local irreducible] Host.scatterAdd Host.gather

variable (U : Valuation τ sig (Elt Ideal))

theorem at_main_v59 :
    StableHlo.after (hostOps2 (F := Ideal)) U (Proc.devRef .tc main_v59)
      = Spec.sumDis (U (Proc.devRef .tc main_v45)) (U (Proc.devRef .tc main_arg2)) := by
  after_results_simp <;> rfl

theorem at_main_v67 :
    StableHlo.after (hostOps2 (F := Ideal)) U (Proc.devRef .tc main_v67)
      = shapeCast S20000x1 (Spec.cntDis (U (Proc.devRef .tc main_arg2))) Facts₀.shapeCasts_S20000_S20000x1 := by
  after_results_simp <;> rfl

theorem at_main_v64 :
    StableHlo.after (hostOps2 (F := Ideal)) U (Proc.devRef .tc main_v64)
      = transpose S128x64 [1, 0] (U (Proc.devRef .tc main_arg10)) Facts₀.transposes_S64x128_S128x64_1_0 := by
  after_results_simp <;> rfl

theorem at_main_v66 :
    StableHlo.after (hostOps2 (F := Ideal)) U (Proc.devRef .tc main_v66)
      = shapeCast S1x64 (U (Proc.devRef .tc main_arg11)) Facts₀.shapeCasts_S64_S1x64 := by
  after_results_simp <;> rfl

theorem at_main_v65 :
    StableHlo.after (hostOps2 (F := Ideal)) U (Proc.devRef .tc main_v65)
      = transpose S128x64 [1, 0] (U (Proc.devRef .tc main_arg12)) Facts₀.transposes_S64x128_S128x64_1_0 := by
  after_results_simp <;> rfl

end Cert.KernelIdeal.StretchValue2

end
-- ==== Proof.KStretch3.lean ====
/-
  Host stretch 3 of the kernel's program, read at the five arrays the next region takes as windows, from ANY buffer
  contents `U` at the stretch's start: the summed neighbour rows and the neighbour counts are the aggregation functions of the
  specification applied to the contents of the buffers the stretch reads, the weights their transposes, the bias and the counts
  reshaped to a row and a column.
-/
import proofs.«100673_j49950469652729_1_alg».proof.Proof.Gen.KernelIdeal.Launch
import proofs.«100673_j49950469652729_1_alg».proof.Proof.Spec
import Idealize.ShloMosaic.Lib.StableHlo.Run

set_option maxRecDepth 16384

noncomputable section

namespace Cert.KernelIdeal.StretchValue3

open Cert.KernelIdeal Cert.KernelIdeal.Gen
open Idealize.ShloMosaic Idealize.ShloMosaic.TcCoe Idealize.SL.Sem Idealize.ShloMosaic.StableHlo

attribute [local irreducible] Host.scatterAdd Host.gather

variable (U : Valuation τ sig (Elt Ideal))

theorem at_main_v82 :
    StableHlo.after (hostOps3 (F := Ideal)) U (Proc.devRef .tc main_v82)
      = Spec.sumDrug128 (U (Proc.devRef .tc main_v22)) (U (Proc.devRef .tc main_arg3)) := by
  after_results_simp <;> rfl

theorem at_main_v90 :
    StableHlo.after (hostOps3 (F := Ideal)) U (Proc.devRef .tc main_v90)
      = shapeCast S100000x1 (Spec.cntDrug (U (Proc.devRef .tc main_arg3))) Facts₀.shapeCasts_S100000_S100000x1 := by
  after_results_simp <;> rfl

theorem at_main_v87 :
    StableHlo.after (hostOps3 (F := Ideal)) U (Proc.devRef .tc main_v87)
      = transpose S128x64 [1, 0] (U (Proc.devRef .tc main_arg13)) Facts₀.transposes_S64x128_S128x64_1_0 := by
  after_results_simp <;> rfl

theorem at_main_v89 :
    StableHlo.after (hostOps3 (F := Ideal)) U (Proc.devRef .tc main_v89)
      = shapeCast S1x64 (U (Proc.devRef .tc main_arg14)) Facts₀.shapeCasts_S64_S1x64 := by
  after_results_simp <;> rfl

theorem at_main_v88 :
    StableHlo.after (hostOps3 (F := Ideal)) U (Proc.devRef .tc main_v88)
      = transpose S128x64 [1, 0] (U (Proc.devRef .tc main_arg15)) Facts₀.transposes_S64x128_S128x64_1_0 := by
  after_results_simp <;> rfl

end Cert.KernelIdeal.StretchValue3

end
-- ==== Proof.KValue.lean ====
/-
  The idealized kernel's two results as the specification's functions of the argument arrays: the buffer contents at the
  last segment boundary are followed back through the program — a region's output array holds the mean-aggregating layer of
  the arrays the region found (the region value modules), those arrays are what the host stretch before it computed from the
  buffers it read (the stretch modules), and a buffer no stretch writes and no region has as its output keeps its contents.
-/
import proofs.«100673_j49950469652729_1_alg».proof.Proof.Gen.KernelIdeal.Frame
import proofs.«100673_j49950469652729_1_alg».proof.Proof.KRegion0
import proofs.«100673_j49950469652729_1_alg».proof.Proof.KRegion1
import proofs.«100673_j49950469652729_1_alg».proof.Proof.KRegion2
import proofs.«100673_j49950469652729_1_alg».proof.Proof.KRegion3
import proofs.«100673_j49950469652729_1_alg».proof.Proof.KStretch0
import proofs.«100673_j49950469652729_1_alg».proof.Proof.KStretch1
import proofs.«100673_j49950469652729_1_alg».proof.Proof.KStretch2
import proofs.«100673_j49950469652729_1_alg».proof.Proof.KStretch3
import proofs.«100673_j49950469652729_1_alg».proof.Proof.Spec

set_option maxRecDepth 16384

noncomputable section

namespace Cert.KernelIdeal.KValue

open Cert.KernelIdeal Cert.KernelIdeal.Gen
open Idealize.ShloMosaic Idealize.ShloMosaic.TcCoe Idealize.SL.Sem
open Idealize.ShloMosaic.Pipeline (Dat Cfg Window)

attribute [local irreducible] Host.scatterAdd Host.gather

variable (m : (ℓ : Loc nD τ sig) → Buf (Elt Ideal) ℓ) (ρ : Dev nD → PrngReg)

/-! ## Buffers that keep their contents across stretches and regions -/

theorem pass_main_arg1_1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem pass_main_arg1_2 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem pass_main_arg3_2 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem pass_main_arg7_2 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem pass_main_arg8_2 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem pass_main_arg9_2 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem pass_main_arg0_3 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem pass_main_arg2_4 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem pass_main_arg10_4 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem pass_main_arg11_4 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem pass_main_arg12_4 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem pass_main_v22_5 (c : Dev nD) : W5 m ρ c (Proc.devRef .tc main_v22) = W2 m ρ c (Proc.devRef .tc main_v22) :=
  calc W5 m ρ c (Proc.devRef .tc main_v22)
    _ = W4 m ρ c (Proc.devRef .tc main_v22) := StableHlo.after_of_forall_not_mem (b := Proc.devRef .tc main_v22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v22) := W4_of_ne m ρ c main_v22 (by decide)
    _ = W2 m ρ c (Proc.devRef .tc main_v22) := StableHlo.after_of_forall_not_mem (b := Proc.devRef .tc main_v22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_v22_6 (c : Dev nD) : W6 m ρ c (Proc.devRef .tc main_v22) = W2 m ρ c (Proc.devRef .tc main_v22) :=
  calc W6 m ρ c (Proc.devRef .tc main_v22)
    _ = W5 m ρ c (Proc.devRef .tc main_v22) := (W6_arr m ρ c 2).trans (((dat2 (V5 m ρ) c).arrAt_in 2 rfl _).trans (A_eq2 (V5 m ρ) c 2))
    _ = W4 m ρ c (Proc.devRef .tc main_v22) := StableHlo.after_of_forall_not_mem (b := Proc.devRef .tc main_v22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v22) := W4_of_ne m ρ c main_v22 (by decide)
    _ = W2 m ρ c (Proc.devRef .tc main_v22) := StableHlo.after_of_forall_not_mem (b := Proc.devRef .tc main_v22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_arg3_6 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem pass_main_arg13_6 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem pass_main_arg14_6 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem pass_main_arg15_6 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem pass_main_v45_7 (c : Dev nD) : W7 m ρ c (Proc.devRef .tc main_v45) = W4 m ρ c (Proc.devRef .tc main_v45) :=
  calc W7 m ρ c (Proc.devRef .tc main_v45)
    _ = W6 m ρ c (Proc.devRef .tc main_v45) := StableHlo.after_of_forall_not_mem (b := Proc.devRef .tc main_v45) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v45) := W6_of_ne m ρ c main_v45 (by decide)
    _ = W4 m ρ c (Proc.devRef .tc main_v45) := StableHlo.after_of_forall_not_mem (b := Proc.devRef .tc main_v45) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem pass_main_v68_8 (c : Dev nD) : W8 m ρ c (Proc.devRef .tc main_v68) = W6 m ρ c (Proc.devRef .tc main_v68) :=
  calc W8 m ρ c (Proc.devRef .tc main_v68)
    _ = W7 m ρ c (Proc.devRef .tc main_v68) := W8_of_ne m ρ c main_v68 (by decide)
    _ = W6 m ρ c (Proc.devRef .tc main_v68) := StableHlo.after_of_forall_not_mem (b := Proc.devRef .tc main_v68) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## The four regions' outputs -/

theorem v22_at2 (c : Dev nD) : W2 m ρ c (Proc.devRef .tc main_v22) = (Spec.hDis (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) := by
  have h0 : V1 m ρ c main_v13 = Spec.sumDis (m ((c : Thread nD τ).loc main_arg0)) (m ((c : Thread nD τ).loc main_arg2)) := StretchValue0.at_main_v13 (W0 m ρ c)
  have h1 : V1 m ρ c main_v21 = shapeCast S20000x1 (Spec.cntDis (m ((c : Thread nD τ).loc main_arg2))) Facts₀.shapeCasts_S20000_S20000x1 := StretchValue0.at_main_v21 (W0 m ρ c)
  have h2 : V1 m ρ c main_arg1 = (m ((c : Thread nD τ).loc main_arg1)) := pass_main_arg1_1 m ρ c
  have h3 : V1 m ρ c main_v18 = transpose S128x128 [1, 0] (m ((c : Thread nD τ).loc main_arg4)) Facts₀.transposes_S128x128_S128x128_1_0 := StretchValue0.at_main_v18 (W0 m ρ c)
  have h4 : V1 m ρ c main_v20 = shapeCast S1x128 (m ((c : Thread nD τ).loc main_arg5)) Facts₀.shapeCasts_S128_S1x128 := StretchValue0.at_main_v20 (W0 m ρ c)
  have h5 : V1 m ρ c main_v19 = transpose S64x128 [1, 0] (m ((c : Thread nD τ).loc main_arg6)) Facts₀.transposes_S128x64_S64x128_1_0 := StretchValue0.at_main_v19 (W0 m ρ c)
  refine (W2_arr m ρ c 6).trans ((RegionValue0.value (V1 m ρ) c).trans ?_)
  rw [h0, h1, h2, h3, h4, h5]
  rfl

theorem v45_at4 (c : Dev nD) : W4 m ρ c (Proc.devRef .tc main_v45) = (Spec.hDrug (m ((c : Thread nD τ).loc main_arg0)) (m ((c : Thread nD τ).loc main_arg1)) (m ((c : Thread nD τ).loc main_arg3)) (m ((c : Thread nD τ).loc main_arg7)) (m ((c : Thread nD τ).loc main_arg8)) (m ((c : Thread nD τ).loc main_arg9))) := by
  have h0 : V3 m ρ c main_v36 = Spec.sumDrug64 (m ((c : Thread nD τ).loc main_arg1)) (m ((c : Thread nD τ).loc main_arg3)) := (StretchValue1.at_main_v36 (W2 m ρ c)).trans (by rw [pass_main_arg1_2 m ρ c, pass_main_arg3_2 m ρ c])
  have h1 : V3 m ρ c main_v44 = shapeCast S100000x1 (Spec.cntDrug (m ((c : Thread nD τ).loc main_arg3))) Facts₀.shapeCasts_S100000_S100000x1 := (StretchValue1.at_main_v44 (W2 m ρ c)).trans (by rw [pass_main_arg3_2 m ρ c])
  have h2 : V3 m ρ c main_arg0 = (m ((c : Thread nD τ).loc main_arg0)) := pass_main_arg0_3 m ρ c
  have h3 : V3 m ρ c main_v41 = transpose S64x128 [1, 0] (m ((c : Thread nD τ).loc main_arg7)) Facts₀.transposes_S128x64_S64x128_1_0 := (StretchValue1.at_main_v41 (W2 m ρ c)).trans (by rw [pass_main_arg7_2 m ρ c])
  have h4 : V3 m ρ c main_v43 = shapeCast S1x128 (m ((c : Thread nD τ).loc main_arg8)) Facts₀.shapeCasts_S128_S1x128 := (StretchValue1.at_main_v43 (W2 m ρ c)).trans (by rw [pass_main_arg8_2 m ρ c])
  have h5 : V3 m ρ c main_v42 = transpose S128x128 [1, 0] (m ((c : Thread nD τ).loc main_arg9)) Facts₀.transposes_S128x128_S128x128_1_0 := (StretchValue1.at_main_v42 (W2 m ρ c)).trans (by rw [pass_main_arg9_2 m ρ c])
  refine (W4_arr m ρ c 6).trans ((RegionValue1.value (V3 m ρ) c).trans ?_)
  rw [h0, h1, h2, h3, h4, h5]
  rfl

theorem v68_at6 (c : Dev nD) : W6 m ρ c (Proc.devRef .tc main_v68) = (Spec.oDis (Spec.hDrug (m ((c : Thread nD τ).loc main_arg0)) (m ((c : Thread nD τ).loc main_arg1)) (m ((c : Thread nD τ).loc main_arg3)) (m ((c : Thread nD τ).loc main_arg7)) (m ((c : Thread nD τ).loc main_arg8)) (m ((c : Thread nD τ).loc main_arg9))) (Spec.hDis (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) (m ((c : Thread nD τ).loc main_arg2)) (m ((c : Thread nD τ).loc main_arg10)) (m ((c : Thread nD τ).loc main_arg11)) (m ((c : Thread nD τ).loc main_arg12))) := by
  have h0 : V5 m ρ c main_v59 = Spec.sumDis (Spec.hDrug (m ((c : Thread nD τ).loc main_arg0)) (m ((c : Thread nD τ).loc main_arg1)) (m ((c : Thread nD τ).loc main_arg3)) (m ((c : Thread nD τ).loc main_arg7)) (m ((c : Thread nD τ).loc main_arg8)) (m ((c : Thread nD τ).loc main_arg9))) (m ((c : Thread nD τ).loc main_arg2)) := (StretchValue2.at_main_v59 (W4 m ρ c)).trans (by rw [v45_at4 m ρ c, pass_main_arg2_4 m ρ c])
  have h1 : V5 m ρ c main_v67 = shapeCast S20000x1 (Spec.cntDis (m ((c : Thread nD τ).loc main_arg2))) Facts₀.shapeCasts_S20000_S20000x1 := (StretchValue2.at_main_v67 (W4 m ρ c)).trans (by rw [pass_main_arg2_4 m ρ c])
  have h2 : V5 m ρ c main_v22 = (Spec.hDis (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) := (pass_main_v22_5 m ρ c).trans (v22_at2 m ρ c)
  have h3 : V5 m ρ c main_v64 = transpose S128x64 [1, 0] (m ((c : Thread nD τ).loc main_arg10)) Facts₀.transposes_S64x128_S128x64_1_0 := (StretchValue2.at_main_v64 (W4 m ρ c)).trans (by rw [pass_main_arg10_4 m ρ c])
  have h4 : V5 m ρ c main_v66 = shapeCast S1x64 (m ((c : Thread nD τ).loc main_arg11)) Facts₀.shapeCasts_S64_S1x64 := (StretchValue2.at_main_v66 (W4 m ρ c)).trans (by rw [pass_main_arg11_4 m ρ c])
  have h5 : V5 m ρ c main_v65 = transpose S128x64 [1, 0] (m ((c : Thread nD τ).loc main_arg12)) Facts₀.transposes_S64x128_S128x64_1_0 := (StretchValue2.at_main_v65 (W4 m ρ c)).trans (by rw [pass_main_arg12_4 m ρ c])
  refine (W6_arr m ρ c 6).trans ((RegionValue2.value (V5 m ρ) c).trans ?_)
  rw [h0, h1, h2, h3, h4, h5]
  rfl

theorem v91_at8 (c : Dev nD) : W8 m ρ c (Proc.devRef .tc main_v91) = (Spec.oDrug (Spec.hDis (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) (Spec.hDrug (m ((c : Thread nD τ).loc main_arg0)) (m ((c : Thread nD τ).loc main_arg1)) (m ((c : Thread nD τ).loc main_arg3)) (m ((c : Thread nD τ).loc main_arg7)) (m ((c : Thread nD τ).loc main_arg8)) (m ((c : Thread nD τ).loc main_arg9))) (m ((c : Thread nD τ).loc main_arg3)) (m ((c : Thread nD τ).loc main_arg13)) (m ((c : Thread nD τ).loc main_arg14)) (m ((c : Thread nD τ).loc main_arg15))) := by
  have h0 : V7 m ρ c main_v82 = Spec.sumDrug128 (Spec.hDis (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) (m ((c : Thread nD τ).loc main_arg3)) := (StretchValue3.at_main_v82 (W6 m ρ c)).trans (by rw [(pass_main_v22_6 m ρ c).trans (v22_at2 m ρ c), pass_main_arg3_6 m ρ c])
  have h1 : V7 m ρ c main_v90 = shapeCast S100000x1 (Spec.cntDrug (m ((c : Thread nD τ).loc main_arg3))) Facts₀.shapeCasts_S100000_S100000x1 := (StretchValue3.at_main_v90 (W6 m ρ c)).trans (by rw [pass_main_arg3_6 m ρ c])
  have h2 : V7 m ρ c main_v45 = (Spec.hDrug (m ((c : Thread nD τ).loc main_arg0)) (m ((c : Thread nD τ).loc main_arg1)) (m ((c : Thread nD τ).loc main_arg3)) (m ((c : Thread nD τ).loc main_arg7)) (m ((c : Thread nD τ).loc main_arg8)) (m ((c : Thread nD τ).loc main_arg9))) := (pass_main_v45_7 m ρ c).trans (v45_at4 m ρ c)
  have h3 : V7 m ρ c main_v87 = transpose S128x64 [1, 0] (m ((c : Thread nD τ).loc main_arg13)) Facts₀.transposes_S64x128_S128x64_1_0 := (StretchValue3.at_main_v87 (W6 m ρ c)).trans (by rw [pass_main_arg13_6 m ρ c])
  have h4 : V7 m ρ c main_v89 = shapeCast S1x64 (m ((c : Thread nD τ).loc main_arg14)) Facts₀.shapeCasts_S64_S1x64 := (StretchValue3.at_main_v89 (W6 m ρ c)).trans (by rw [pass_main_arg14_6 m ρ c])
  have h5 : V7 m ρ c main_v88 = transpose S128x64 [1, 0] (m ((c : Thread nD τ).loc main_arg15)) Facts₀.transposes_S64x128_S128x64_1_0 := (StretchValue3.at_main_v88 (W6 m ρ c)).trans (by rw [pass_main_arg15_6 m ρ c])
  refine (W8_arr m ρ c 6).trans ((RegionValue3.value (V7 m ρ) c).trans ?_)
  rw [h0, h1, h2, h3, h4, h5]
  rfl

/-- The second result is not touched after the third region. -/
theorem v68_at8 (c : Dev nD) : W8 m ρ c (Proc.devRef .tc main_v68) = (Spec.oDis (Spec.hDrug (m ((c : Thread nD τ).loc main_arg0)) (m ((c : Thread nD τ).loc main_arg1)) (m ((c : Thread nD τ).loc main_arg3)) (m ((c : Thread nD τ).loc main_arg7)) (m ((c : Thread nD τ).loc main_arg8)) (m ((c : Thread nD τ).loc main_arg9))) (Spec.hDis (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) (m ((c : Thread nD τ).loc main_arg2)) (m ((c : Thread nD τ).loc main_arg10)) (m ((c : Thread nD τ).loc main_arg11)) (m ((c : Thread nD τ).loc main_arg12))) :=
  (pass_main_v68_8 m ρ c).trans (v68_at6 m ρ c)

end Cert.KernelIdeal.KValue

end
-- ==== Proof.RefValue.lean ====
/-
  The reference's two results are the specification's two functions of its argument arrays: each of its four layers is, in
  the host's spelling (a quotient by the clamped counts spread over the columns, two `dot_general`s, the bias spread down
  the rows), the mean-aggregating layer of LibSageLayer; the aggregations and the clamps below at zero are the specification's
  own terms.
-/
import proofs.«100673_j49950469652729_1_alg».proof.Proof.Gen.ReferenceIdeal.Run
import proofs.«100673_j49950469652729_1_alg».proof.Proof.Spec

set_option maxRecDepth 16384

noncomputable section

namespace Cert.ReferenceIdeal.RefValue

open Cert.ReferenceIdeal Cert.ReferenceIdeal.Facts₀
open Idealize.ShloMosaic Idealize.ShloMosaic.TcCoe Idealize.SL.Sem

attribute [local irreducible] Host.scatterAdd Host.gather

/-- The reference's layer into the 20000 nodes (source width 128, own width 64, output width 128), before any activation, is the
    mean-aggregating layer of the count vector laid out as a column and the bias vector laid out as a row. -/
theorem layer_dis0 (S : FVec Ideal S20000x128 .f32) (cnt : FVec Ideal S20000 .f32) (H : FVec Ideal S20000x64 .f32)
    (Wl : FVec Ideal S128x128 .f32) (bl : FVec Ideal S128 .f32) (Wr : FVec Ideal S64x128 .f32) :
    (addf (addf (Host.dotGeneral dot_S20000x128_S128x128_S20000x128_1_0_0_1_n_n none (Host.divf S (broadcastInDim S20000x128 ![0, 1] bcast_S20000x1_S20000x128_0_1 (broadcastInDim S20000x1 ![0] bcast_S20000_S20000x1_0 (maximumf cnt (broadcastInDim S20000 ![] bcast_S_S20000 (constant (F := Ideal) S_ .f32 0x3F800000#32)))))) Wl) (broadcastInDim S20000x128 ![0, 1] bcast_S1x128_S20000x128_0_1 (broadcastInDim S1x128 ![1] bcast_S128_S1x128_1 bl))) (Host.dotGeneral dot_S20000x64_S64x128_S20000x128_1_0_0_1_n_n none H Wr))
      = Sage.affine S (shapeCast S20000x1 cnt Cert.KernelIdeal.Facts₀.shapeCasts_S20000_S20000x1) H Wl
          (shapeCast S1x128 bl Cert.KernelIdeal.Facts₀.shapeCasts_S128_S1x128) Wr :=
  Sage.host_affine _ rfl _ rfl S cnt H Wl bl Wr _ _ _ _ _ _ _

/-- The reference's layer into the 100000 nodes (source width 64, own width 128, output width 128), before any activation, is the
    mean-aggregating layer of the count vector laid out as a column and the bias vector laid out as a row. -/
theorem layer_drug0 (S : FVec Ideal S100000x64 .f32) (cnt : FVec Ideal S100000 .f32) (H : FVec Ideal S100000x128 .f32)
    (Wl : FVec Ideal S64x128 .f32) (bl : FVec Ideal S128 .f32) (Wr : FVec Ideal S128x128 .f32) :
    (addf (addf (Host.dotGeneral dot_S100000x64_S64x128_S100000x128_1_0_0_1_n_n none (Host.divf S (broadcastInDim S100000x64 ![0, 1] bcast_S100000x1_S100000x64_0_1 (broadcastInDim S100000x1 ![0] bcast_S100000_S100000x1_0 (maximumf cnt (broadcastInDim S100000 ![] bcast_S_S100000 (constant (F := Ideal) S_ .f32 0x3F800000#32)))))) Wl) (broadcastInDim S100000x128 ![0, 1] bcast_S1x128_S100000x128_0_1 (broadcastInDim S1x128 ![1] bcast_S128_S1x128_1 bl))) (Host.dotGeneral dot_S100000x128_S128x128_S100000x128_1_0_0_1_n_n none H Wr))
      = Sage.affine S (shapeCast S100000x1 cnt Cert.KernelIdeal.Facts₀.shapeCasts_S100000_S100000x1) H Wl
          (shapeCast S1x128 bl Cert.KernelIdeal.Facts₀.shapeCasts_S128_S1x128) Wr :=
  Sage.host_affine _ rfl _ rfl S cnt H Wl bl Wr _ _ _ _ _ _ _

/-- The reference's layer into the 20000 nodes (source width 128, own width 128, output width 64), before any activation, is the
    mean-aggregating layer of the count vector laid out as a column and the bias vector laid out as a row. -/
theorem layer_dis1 (S : FVec Ideal S20000x128 .f32) (cnt : FVec Ideal S20000 .f32) (H : FVec Ideal S20000x128 .f32)
    (Wl : FVec Ideal S128x64 .f32) (bl : FVec Ideal S64 .f32) (Wr : FVec Ideal S128x64 .f32) :
    (addf (addf (Host.dotGeneral dot_S20000x128_S128x64_S20000x64_1_0_0_1_n_n none (Host.divf S (broadcastInDim S20000x128 ![0, 1] bcast_S20000x1_S20000x128_0_1 (broadcastInDim S20000x1 ![0] bcast_S20000_S20000x1_0 (maximumf cnt (broadcastInDim S20000 ![] bcast_S_S20000 (constant (F := Ideal) S_ .f32 0x3F800000#32)))))) Wl) (broadcastInDim S20000x64 ![0, 1] bcast_S1x64_S20000x64_0_1 (broadcastInDim S1x64 ![1] bcast_S64_S1x64_1 bl))) (Host.dotGeneral dot_S20000x128_S128x64_S20000x64_1_0_0_1_n_n none H Wr))
      = Sage.affine S (shapeCast S20000x1 cnt Cert.KernelIdeal.Facts₀.shapeCasts_S20000_S20000x1) H Wl
          (shapeCast S1x64 bl Cert.KernelIdeal.Facts₀.shapeCasts_S64_S1x64) Wr :=
  Sage.host_affine _ rfl _ rfl S cnt H Wl bl Wr _ _ _ _ _ _ _

/-- The reference's layer into the 100000 nodes (source width 128, own width 128, output width 64), before any activation, is the
    mean-aggregating layer of the count vector laid out as a column and the bias vector laid out as a row. -/
theorem layer_drug1 (S : FVec Ideal S100000x128 .f32) (cnt : FVec Ideal S100000 .f32) (H : FVec Ideal S100000x128 .f32)
    (Wl : FVec Ideal S128x64 .f32) (bl : FVec Ideal S64 .f32) (Wr : FVec Ideal S128x64 .f32) :
    (addf (addf (Host.dotGeneral dot_S100000x128_S128x64_S100000x64_1_0_0_1_n_n none (Host.divf S (broadcastInDim S100000x128 ![0, 1] bcast_S100000x1_S100000x128_0_1 (broadcastInDim S100000x1 ![0] bcast_S100000_S100000x1_0 (maximumf cnt (broadcastInDim S100000 ![] bcast_S_S100000 (constant (F := Ideal) S_ .f32 0x3F800000#32)))))) Wl) (broadcastInDim S100000x64 ![0, 1] bcast_S1x64_S100000x64_0_1 (broadcastInDim S1x64 ![1] bcast_S64_S1x64_1 bl))) (Host.dotGeneral dot_S100000x128_S128x64_S100000x64_1_0_0_1_n_n none H Wr))
      = Sage.affine S (shapeCast S100000x1 cnt Cert.KernelIdeal.Facts₀.shapeCasts_S100000_S100000x1) H Wl
          (shapeCast S1x64 bl Cert.KernelIdeal.Facts₀.shapeCasts_S64_S1x64) Wr :=
  Sage.host_affine _ rfl _ rfl S cnt H Wl bl Wr _ _ _ _ _ _ _

variable (m : (ℓ : Loc nD τ sig) → Buf (Elt Ideal) ℓ) (c : Dev nD)

set_option maxHeartbeats 4000000 in
/-- The first result (the layer into the 100000 nodes, second round). -/
theorem out0_eq : Cert.ReferenceIdeal.Value.res_main_v133 (F := Ideal) m c
    = Spec.oDrug (Spec.hDis (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)))
        (Spec.hDrug (m ((c.tc : Thread nD τ).loc main_arg0)) (m ((c.tc : Thread nD τ).loc main_arg1)) (m ((c.tc : Thread nD τ).loc main_arg3)) (m ((c.tc : Thread nD τ).loc main_arg7)) (m ((c.tc : Thread nD τ).loc main_arg8)) (m ((c.tc : Thread nD τ).loc main_arg9)))
        (m ((c.tc : Thread nD τ).loc main_arg3)) (m ((c.tc : Thread nD τ).loc main_arg13)) (m ((c.tc : Thread nD τ).loc main_arg14)) (m ((c.tc : Thread nD τ).loc main_arg15)) := by
  unfold Cert.ReferenceIdeal.Value.res_main_v133
  rw [layer_drug1, layer_dis0, layer_drug0]
  rfl

set_option maxHeartbeats 4000000 in
/-- The second result (the layer into the 20000 nodes, second round). -/
theorem out1_eq : Cert.ReferenceIdeal.Value.res_main_v100 (F := Ideal) m c
    = Spec.oDis (Spec.hDrug (m ((c.tc : Thread nD τ).loc main_arg0)) (m ((c.tc : Thread nD τ).loc main_arg1)) (m ((c.tc : Thread nD τ).loc main_arg3)) (m ((c.tc : Thread nD τ).loc main_arg7)) (m ((c.tc : Thread nD τ).loc main_arg8)) (m ((c.tc : Thread nD τ).loc main_arg9)))
        (Spec.hDis (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)))
        (m ((c.tc : Thread nD τ).loc main_arg2)) (m ((c.tc : Thread nD τ).loc main_arg10)) (m ((c.tc : Thread nD τ).loc main_arg11)) (m ((c.tc : Thread nD τ).loc main_arg12)) := by
  unfold Cert.ReferenceIdeal.Value.res_main_v100
  rw [layer_dis1, layer_drug0, layer_dis0]
  rfl

end Cert.ReferenceIdeal.RefValue

end
-- ==== Proof.lean ====
/-
  The certificate of a two-layer mean-aggregating graph network over two node types (100000 and 20000 nodes) and two edge
  relations of a million edges each, written as four tiled kernels among host aggregations, against its plain reference.

  Each of the four layers gathers the source nodes' rows along the edges, sums them into their destination nodes and counts
  the edges per destination node — on the host, verbatim in both programs — and then computes, per destination node,
      (summed row / max(count, 1)) · Wlᵀ + bias + own row · Wrᵀ,
  clamped below at zero in the first round.  The kernel multiplies the summed row by the reciprocal 1 / max(count, 1) on
  blocks of 2000 or 5000 node rows; the reference divides.  The divisor is at least 1, hence not 0, so both are
  x · (max(count, 1))⁻¹ on every extended real (LibSageLayer, `recip_law`): the two programs compute ONE function of their
  arguments (Spec), with no appeal to the finiteness of the inputs.

  The kernel's side: its run with the results named (KRun), each region's output as the layer of the arrays it finds
  (KRegion0–3), each host stretch read at the arrays the next region takes (KStretch0–3), and their composition (KValue).
  The reference's side: its generated run, and its four layers read as the same layer function (RefValue).
  The idealization rewrote nothing, so `preserves` is trivial; the three frames are the generated ones.
-/
import proofs.«100673_j49950469652729_1_alg».proof.Defs
import proofs.«100673_j49950469652729_1_alg».proof.Proof.Gen.Kernel
import proofs.«100673_j49950469652729_1_alg».proof.Proof.Gen.Kernel.Frame
import proofs.«100673_j49950469652729_1_alg».proof.Proof.Gen.KernelIdeal
import proofs.«100673_j49950469652729_1_alg».proof.Proof.Gen.KernelIdeal.Frame
import proofs.«100673_j49950469652729_1_alg».proof.Proof.Gen.ReferenceIdeal
import proofs.«100673_j49950469652729_1_alg».proof.Proof.Gen.ReferenceIdeal.Run
import proofs.«100673_j49950469652729_1_alg».proof.Proof.Gen.Pre_finite_inputs
import proofs.«100673_j49950469652729_1_alg».proof.Proof.KRun
import proofs.«100673_j49950469652729_1_alg».proof.Proof.KValue
import proofs.«100673_j49950469652729_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

set_option maxHeartbeats 4000000 in
/-- Both programs end with the specification's two functions of the (agreeing) argument arrays. -/
theorem algebraic : Cert.algebraic_KernelIdeal_ReferenceIdeal := by
  intro m ρ m' ρ' _ hagree
  refine ⟨fun c => Cert.Spec.oDrug (Cert.Spec.hDis (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (Cert.Spec.hDrug (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg3)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.Spec.oDis (Cert.Spec.hDrug (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (Cert.Spec.hDis (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg2)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.KValue.v91_at8 m ρ c), (h c).2.1.trans (Cert.KernelIdeal.KValue.v68_at8 m ρ c), (h c).2.2⟩)
      (Cert.KernelIdeal.RunValue.run (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨g0, g1, g2, g3, g4, g5, g6, g7, g8, g9, g10, g11, g12, g13, g14, g15⟩ := hagree c
      rw [Cert.ReferenceIdeal.RefValue.out0_eq m' c, g0, g1, g2, g3, g4, g5, g6, g7, g8, g9, g13, g14, g15]
    · obtain ⟨g0, g1, g2, g3, g4, g5, g6, g7, g8, g9, g10, g11, g12, g13, g14, g15⟩ := hagree c
      rw [Cert.ReferenceIdeal.RefValue.out1_eq m' c, g0, g1, g2, g3, g4, g5, g6, g7, g8, g9, g10, g11, g12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
